-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x32x256 : Shape := ⟨3, ![16384, 32, 256]⟩
abbrev S256x128 : Shape := ⟨2, ![256, 128]⟩
abbrev S1x8x256 : Shape := ⟨3, ![1, 8, 256]⟩
abbrev S1024 : Shape := ⟨1, ![1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x32x256 : S_.BroadcastsInDim S16384x32x256 (![] : Fin 0 → Fin S16384x32x256.rank)
  reducesTo_S16384x32x256_S_d0_1_2 : S16384x32x256.ReducesTo [0, 1, 2] S_
  bcast_S_S256x128 : S_.BroadcastsInDim S256x128 (![] : Fin 0 → Fin S256x128.rank)
  reducesTo_S256x128_S_d0_1 : S256x128.ReducesTo [0, 1] S_
  bcast_S_S1x8x256 : S_.BroadcastsInDim S1x8x256 (![] : Fin 0 → Fin S1x8x256.rank)
  reducesTo_S1x8x256_S_d0_1_2 : S1x8x256.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1x8x256 1) : IVec S_ 1 :=
  let main_c_5 : IVec S_ 1 := constantI S_ 1 1#1
  let main_v17 : IVec S_ 1 := (fun x v => Host.reduce IntOp.andi x v reducesTo_S1x8x256_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x256 .f32) (main_arg1 : FVec F S16384x32x256 .f32) (main_arg2 : FVec F S256x128 .f32) (main_arg3 : FVec F S1x8x256 .f32) (main_arg4 : FVec F S1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x32x256 .f32 := Host.absf main_arg1
  let main_cst_0 : FVec F S_ .f32 := constant S_ .f32 0x7F800000#32
  let main_v5 : FVec F S16384x32x256 .f32 := broadcastInDim S16384x32x256 ![] bcast_S_S16384x32x256 main_cst_0
  let main_v6 : IVec S16384x32x256 1 := cmpf .olt main_v4 main_v5
  let main_c_1 : IVec S_ 1 := constantI S_ 1 1#1
  let main_v7 : IVec S_ 1 := (fun x v => Host.reduce IntOp.andi x v reducesTo_S16384x32x256_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S1x8x256 .f32 := Host.absf main_arg3
  let main_cst_4 : FVec F S_ .f32 := constant S_ .f32 0x7F800000#32
  let main_v15 : FVec F S1x8x256 .f32 := broadcastInDim S1x8x256 ![] bcast_S_S1x8x256 main_cst_4
  let main_v16 : IVec S1x8x256 1 := cmpf .olt main_v14 main_v15
  fn_part1 (F := F) main_arg4 main_v13 main_v16
-- ==== Kernel.lean ====
abbrev S16384x256 : Shape := ⟨2, ![16384, 256]⟩
abbrev S16384x32x256 : Shape := ⟨3, ![16384, 32, 256]⟩
abbrev S256x128 : Shape := ⟨2, ![256, 128]⟩
abbrev S1x8x256 : Shape := ⟨3, ![1, 8, 256]⟩
abbrev S1024 : Shape := ⟨1, ![1024]⟩
abbrev S8x128 : Shape := ⟨2, ![8, 128]⟩
abbrev S16384x8x128 : Shape := ⟨3, ![16384, 8, 128]⟩
abbrev S256x256 : Shape := ⟨2, ![256, 256]⟩
abbrev S256x32x256 : Shape := ⟨3, ![256, 32, 256]⟩
abbrev S256x8x128 : Shape := ⟨3, ![256, 8, 128]⟩
abbrev S8x256 : Shape := ⟨2, ![8, 256]⟩
abbrev S128x8 : Shape := ⟨2, ![128, 8]⟩
abbrev S256x8 : Shape := ⟨2, ![256, 8]⟩
abbrev S8192x256 : Shape := ⟨2, ![8192, 256]⟩
abbrev S8192x128 : Shape := ⟨2, ![8192, 128]⟩
abbrev S256x32x128 : Shape := ⟨3, ![256, 32, 128]⟩
abbrev S8192x8 : Shape := ⟨2, ![8192, 8]⟩
abbrev S256x32x8 : Shape := ⟨3, ![256, 32, 8]⟩
abbrev S256x1x8 : Shape := ⟨3, ![256, 1, 8]⟩
abbrev S256x32x1 : Shape := ⟨3, ![256, 32, 1]⟩
abbrev S256x32 : Shape := ⟨2, ![256, 32]⟩
abbrev S1x128 : Shape := ⟨2, ![1, 128]⟩
abbrev S128 : Shape := ⟨1, ![128]⟩
abbrev S256x1x128 : Shape := ⟨3, ![256, 1, 128]⟩
abbrev S16384x1024 : Shape := ⟨2, ![16384, 1024]⟩
abbrev S1x16384x1024 : Shape := ⟨3, ![1, 16384, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S16384x32x256, .f32⟩
  | .hbm, ⟨2, _⟩ => ⟨S256x128, .f32⟩
  | .hbm, ⟨3, _⟩ => ⟨S1x8x256, .f32⟩
  | .hbm, ⟨4, _⟩ => ⟨S1024, .f32⟩
  | .hbm, ⟨5, _⟩ => ⟨S8x128, .f32⟩
  | .hbm, ⟨6, _⟩ => ⟨S16384x8x128, .f32⟩
  | .hbm, ⟨7, _⟩ => ⟨S16384x1024, .f32⟩
  | .hbm, ⟨8, _⟩ => ⟨S1x16384x1024, .f32⟩
  | .local _ .vmem, ⟨0, _⟩ => ⟨S256x256, .f32⟩
  | .local _ .vmem, ⟨1, _⟩ => ⟨S256x256, .f32⟩
  | .local _ .vmem, ⟨2, _⟩ => ⟨S256x32x256, .f32⟩
  | .local _ .vmem, ⟨3, _⟩ => ⟨S256x32x256, .f32⟩
  | .local _ .vmem, ⟨4, _⟩ => ⟨S256x128, .f32⟩
  | .local _ .vmem, ⟨5, _⟩ => ⟨S1x8x256, .f32⟩
  | .local _ .vmem, ⟨6, _⟩ => ⟨S8x128, .f32⟩
  | .local _ .vmem, ⟨7, _⟩ => ⟨S256x8x128, .f32⟩
  | .local _ .vmem, ⟨8, _⟩ => ⟨S256x8x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S8x128 : S1024.ShapeCasts S8x128
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  slices_S8x256_o0_0_S8x128 : S8x256.Slices ![0, 0] S8x128
  slices_S8x256_o0_128_S8x128 : S8x256.Slices ![0, 128] S8x128
  bitsLt_bf16_f32 : FTy.bits .bf16 < FTy.bits .f32
  transposes_S8x128_p1_0_S128x8 : S8x128.Transposes [1, 0] S128x8
  inb_S256x32x256_S256x32x256_0_0_0 : ∀ a, (![0, 0, 0] : Fin 3 → Nat) a + S256x32x256.size a ≤ S256x32x256.size a
  h_S256x32x256 : 0 < S256x32x256.numel
  shapeCasts_S256x32x256_S8192x256 : S256x32x256.ShapeCasts S8192x256
  shapeCasts_S8192x128_S256x32x128 : S8192x128.ShapeCasts S256x32x128
  shapeCasts_S8192x8_S256x32x8 : S8192x8.ShapeCasts S256x32x8
  shapeCasts_S256x8_S256x1x8 : S256x8.ShapeCasts S256x1x8
  broadcasts_S256x1x8_S256x32x8 : S256x1x8.Broadcasts S256x32x8
  reduces_S256x32x8_S256x8 : S256x32x8.Reduces [1] S256x8
  slices_S256x32x8_o0_0_0_S256x32x1 : S256x32x8.Slices ![0, 0, 0] S256x32x1
  shapeCasts_S256x32x1_S256x32 : S256x32x1.ShapeCasts S256x32
  shapeCasts_S256x32_S256x32x1 : S256x32.ShapeCasts S256x32x1
  broadcasts_S256x32x1_S256x32x128 : S256x32x1.Broadcasts S256x32x128
  reduces_S256x32x128_S256x128 : S256x32x128.Reduces [1] S256x128
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  broadcasts_S1x128_S256x128 : S1x128.Broadcasts S256x128
  inb_S256x8x128_S256x1x128_0_0_0 : ∀ a, (![0, 0, 0] : Fin 3 → Nat) a + S256x1x128.size a ≤ S256x8x128.size a
  h_S256x1x128 : 0 < S256x1x128.numel
  shapeCasts_S256x1x128_S256x128 : S256x1x128.ShapeCasts S256x128
  shapeCasts_S256x128_S256x1x128 : S256x128.ShapeCasts S256x1x128
  slices_S256x32x8_o0_0_1_S256x32x1 : S256x32x8.Slices ![0, 0, 1] S256x32x1
  inb_S8x128_S1x128_1_0 : ∀ a, (![1, 0] : Fin 2 → Nat) a + S1x128.size a ≤ S8x128.size a
  inb_S256x8x128_S256x1x128_0_1_0 : ∀ a, (![0, 1, 0] : Fin 3 → Nat) a + S256x1x128.size a ≤ S256x8x128.size a
  slices_S256x32x8_o0_0_2_S256x32x1 : S256x32x8.Slices ![0, 0, 2] S256x32x1
  inb_S8x128_S1x128_2_0 : ∀ a, (![2, 0] : Fin 2 → Nat) a + S1x128.size a ≤ S8x128.size a
  inb_S256x8x128_S256x1x128_0_2_0 : ∀ a, (![0, 2, 0] : Fin 3 → Nat) a + S256x1x128.size a ≤ S256x8x128.size a
  slices_S256x32x8_o0_0_3_S256x32x1 : S256x32x8.Slices ![0, 0, 3] S256x32x1
  inb_S8x128_S1x128_3_0 : ∀ a, (![3, 0] : Fin 2 → Nat) a + S1x128.size a ≤ S8x128.size a
  inb_S256x8x128_S256x1x128_0_3_0 : ∀ a, (![0, 3, 0] : Fin 3 → Nat) a + S256x1x128.size a ≤ S256x8x128.size a
  slices_S256x32x8_o0_0_4_S256x32x1 : S256x32x8.Slices ![0, 0, 4] S256x32x1
  inb_S8x128_S1x128_4_0 : ∀ a, (![4, 0] : Fin 2 → Nat) a + S1x128.size a ≤ S8x128.size a
  inb_S256x8x128_S256x1x128_0_4_0 : ∀ a, (![0, 4, 0] : Fin 3 → Nat) a + S256x1x128.size a ≤ S256x8x128.size a
  slices_S256x32x8_o0_0_5_S256x32x1 : S256x32x8.Slices ![0, 0, 5] S256x32x1
  inb_S8x128_S1x128_5_0 : ∀ a, (![5, 0] : Fin 2 → Nat) a + S1x128.size a ≤ S8x128.size a
  inb_S256x8x128_S256x1x128_0_5_0 : ∀ a, (![0, 5, 0] : Fin 3 → Nat) a + S256x1x128.size a ≤ S256x8x128.size a
  slices_S256x32x8_o0_0_6_S256x32x1 : S256x32x8.Slices ![0, 0, 6] S256x32x1
  inb_S8x128_S1x128_6_0 : ∀ a, (![6, 0] : Fin 2 → Nat) a + S1x128.size a ≤ S8x128.size a
  inb_S256x8x128_S256x1x128_0_6_0 : ∀ a, (![0, 6, 0] : Fin 3 → Nat) a + S256x1x128.size a ≤ S256x8x128.size a
  slices_S256x32x8_o0_0_7_S256x32x1 : S256x32x8.Slices ![0, 0, 7] S256x32x1
  inb_S8x128_S1x128_7_0 : ∀ a, (![7, 0] : Fin 2 → Nat) a + S1x128.size a ≤ S8x128.size a
  inb_S256x8x128_S256x1x128_0_7_0 : ∀ a, (![0, 7, 0] : Fin 3 → Nat) a + S256x1x128.size a ≤ S256x8x128.size a
  shapeCasts_S16384x8x128_S16384x1024 : S16384x8x128.ShapeCasts S16384x1024
  bcast_S16384x1024_S1x16384x1024_1_2 : S16384x1024.BroadcastsInDim S1x16384x1024 (![1, 2] : Fin 2 → Fin S1x16384x1024.rank)
  dot_S256x256_S256x128_S256x128_1_0_0_1_n_n_wf : DotDims.WF S256x256 S256x128 S256x128 [1] [0] [0] [1] [] []
  dot_S256x128_S128x8_S256x8_1_0_0_1_n_n_wf : DotDims.WF S256x128 S128x8 S256x8 [1] [0] [0] [1] [] []
  dot_S8192x256_S256x128_S8192x128_1_0_0_1_n_n_wf : DotDims.WF S8192x256 S256x128 S8192x128 [1] [0] [0] [1] [] []
  dot_S8192x128_S128x8_S8192x8_1_0_0_1_n_n_wf : DotDims.WF S8192x128 S128x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x256.size a ≤ S16384x32x256.size a
  hwx0_1 : ∀ i : grid0.Coords, EltTy.bits .f32 = 32 ∨ (Rect.block (s := S16384x32x256) S256x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8x256.size a ≤ S1x8x256.size a
  hwx0_3 : ∀ i : grid0.Coords, EltTy.bits .f32 = 32 ∨ (Rect.block (s := S1x8x256) S1x8x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8x128.size a ≤ S16384x8x128.size a
  hwx0_5 : ∀ i : grid0.Coords, EltTy.bits .f32 = 32 ∨ (Rect.block (s := S16384x8x128) S256x8x128.size (cc0_transform_5 i) (hinb0_5 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x8_S256x8_1_0_0_1_n_n : DotDims S256x128 S128x8 S256x8 where
  lhsContracting := [1]
  rhsContracting := [0]
  lhsNonContracting := [0]
  rhsNonContracting := [1]
  lhsBatch := []
  rhsBatch := []
  wf := dot_S256x128_S128x8_S256x8_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x32x256 : Shape := ⟨3, ![16384, 32, 256]⟩
abbrev S256x128 : Shape := ⟨2, ![256, 128]⟩
abbrev S1x8x256 : Shape := ⟨3, ![1, 8, 256]⟩
abbrev S1024 : Shape := ⟨1, ![1024]⟩
abbrev S16384x128 : Shape := ⟨2, ![16384, 128]⟩
abbrev S16384x32x128 : Shape := ⟨3, ![16384, 32, 128]⟩
abbrev S8x256 : Shape := ⟨2, ![8, 256]⟩
abbrev S8x128 : Shape := ⟨2, ![8, 128]⟩
abbrev S16384x8 : Shape := ⟨2, ![16384, 8]⟩
abbrev S16384x1x8 : Shape := ⟨3, ![16384, 1, 8]⟩
abbrev S16384x32x8 : Shape := ⟨3, ![16384, 32, 8]⟩
abbrev S16384x8x32 : Shape := ⟨3, ![16384, 8, 32]⟩
abbrev S_ : Shape := ⟨0, ![]⟩
abbrev S16384x8x1 : Shape := ⟨3, ![16384, 8, 1]⟩
abbrev S16384x8x128 : Shape := ⟨3, ![16384, 8, 128]⟩
abbrev S16384x1024 : Shape := ⟨2, ![16384, 1024]⟩
abbrev S1x1024 : Shape := ⟨2, ![1, 1024]⟩
abbrev S1x16384x1024 : Shape := ⟨3, ![1, 16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x32x256, .f32⟩
  | .hbm, ⟨2, _⟩ => ⟨S256x128, .f32⟩
  | .hbm, ⟨3, _⟩ => ⟨S1x8x256, .f32⟩
  | .hbm, ⟨4, _⟩ => ⟨S1024, .f32⟩
  | .hbm, ⟨5, _⟩ => ⟨S16384x128, .f32⟩
  | .hbm, ⟨6, _⟩ => ⟨S16384x32x128, .f32⟩
  | .hbm, ⟨7, _⟩ => ⟨S8x256, .f32⟩
  | .hbm, ⟨8, _⟩ => ⟨S8x128, .f32⟩
  | .hbm, ⟨9, _⟩ => ⟨S8x128, .f32⟩
  | .hbm, ⟨10, _⟩ => ⟨S16384x8, .f32⟩
  | .hbm, ⟨11, _⟩ => ⟨S16384x1x8, .f32⟩
  | .hbm, ⟨12, _⟩ => ⟨S16384x32x8, .f32⟩
  | .hbm, ⟨13, _⟩ => ⟨S16384x32x8, .f32⟩
  | .hbm, ⟨14, _⟩ => ⟨S16384x32x8, .f32⟩
  | .hbm, ⟨15, _⟩ => ⟨S16384x8x32, .f32⟩
  | .hbm, ⟨16, _⟩ => ⟨S_, .f32⟩
  | .hbm, ⟨17, _⟩ => ⟨S_, .f32⟩
  | .hbm, ⟨18, _⟩ => ⟨S16384x8x32, .f32⟩
  | .hbm, ⟨19, _⟩ => ⟨S16384x8x32, .i1⟩
  | .hbm, ⟨20, _⟩ => ⟨S_, .f32⟩
  | .hbm, ⟨21, _⟩ => ⟨S16384x8x32, .f32⟩
  | .hbm, ⟨22, _⟩ => ⟨S16384x8x32, .f32⟩
  | .hbm, ⟨23, _⟩ => ⟨S16384x8x32, .f32⟩
  | .hbm, ⟨24, _⟩ => ⟨S_, .f32⟩
  | .hbm, ⟨25, _⟩ => ⟨S16384x8, .f32⟩
  | .hbm, ⟨26, _⟩ => ⟨S_, .f32⟩
  | .hbm, ⟨27, _⟩ => ⟨S16384x8, .f32⟩
  | .hbm, ⟨28, _⟩ => ⟨S16384x8, .f32⟩
  | .hbm, ⟨29, _⟩ => ⟨S16384x8x1, .f32⟩
  | .hbm, ⟨30, _⟩ => ⟨S16384x8x32, .f32⟩
  | .hbm, ⟨31, _⟩ => ⟨S16384x8x32, .f32⟩
  | .hbm, ⟨32, _⟩ => ⟨S16384x8x32, .f32⟩
  | .hbm, ⟨33, _⟩ => ⟨S_, .f32⟩
  | .hbm, ⟨34, _⟩ => ⟨S16384x8, .f32⟩
  | .hbm, ⟨35, _⟩ => ⟨S16384x8x1, .f32⟩
  | .hbm, ⟨36, _⟩ => ⟨S16384x8x32, .f32⟩
  | .hbm, ⟨37, _⟩ => ⟨S16384x8x32, .f32⟩
  | .hbm, ⟨38, _⟩ => ⟨S16384x8x128, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  shapeCasts_S1x8x256_S8x256 : S1x8x256.ShapeCasts S8x256
  slices_S8x256_S8x128_0_0 : S8x256.Slices ![0, 0] S8x128
  slices_S8x256_S8x128_0_128 : S8x256.Slices ![0, 128] S8x128
  bcast_S16384x8_S16384x1x8_0_2 : S16384x8.BroadcastsInDim S16384x1x8 (![0, 2] : Fin 2 → Fin S16384x1x8.rank)
  bcast_S16384x1x8_S16384x32x8_0_1_2 : S16384x1x8.BroadcastsInDim S16384x32x8 (![0, 1, 2] : Fin 3 → Fin S16384x32x8.rank)
  transposes_S16384x32x8_S16384x8x32_0_2_1 : S16384x32x8.Transposes [0, 2, 1] S16384x8x32
  bcast_S_S16384x8x32 : S_.BroadcastsInDim S16384x8x32 (![] : Fin 0 → Fin S16384x8x32.rank)
  reducesTo_S16384x8x32_S16384x8_d2 : S16384x8x32.ReducesTo [2] S16384x8
  h_S_ : 0 < S_.numel
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  bcast_S16384x8x1_S16384x8x32_0_1_2 : S16384x8x1.BroadcastsInDim S16384x8x32 (![0, 1, 2] : Fin 3 → Fin S16384x8x32.rank)
  shapeCasts_S16384x8x128_S16384x1024 : S16384x8x128.ShapeCasts S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S16384x1024_S1x16384x1024_1_2 : S16384x1024.BroadcastsInDim S1x16384x1024 (![1, 2] : Fin 2 → Fin S1x16384x1024.rank)
  dot_S16384x256_S256x128_S16384x128_1_0_0_1_n_n_wf : DotDims.WF S16384x256 S256x128 S16384x128 [1] [0] [0] [1] [] []
  dot_S16384x32x256_S256x128_S16384x32x128_2_0_01_1_n_n_wf : DotDims.WF S16384x32x256 S256x128 S16384x32x128 [2] [0] [0, 1] [1] [] []
  dot_S16384x128_S8x128_S16384x8_1_1_0_0_n_n_wf : DotDims.WF S16384x128 S8x128 S16384x8 [1] [1] [0] [0] [] []
  dot_S16384x32x128_S8x128_S16384x32x8_2_1_01_0_n_n_wf : DotDims.WF S16384x32x128 S8x128 S16384x32x8 [2] [1] [0, 1] [0] [] []
  dot_S16384x8x32_S16384x32x128_S16384x8x128_2_1_1_2_0_0_wf : DotDims.WF S16384x8x32 S16384x32x128 S16384x8x128 [2] [1] [1] [2] [0] [0]

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x32x256_S256x128_S16384x32x128_2_0_01_1_n_n : DotDims S16384x32x256 S256x128 S16384x32x128 where
  lhsContracting := [2]
  rhsContracting := [0]
  lhsNonContracting := [0, 1]
  rhsNonContracting := [1]
  lhsBatch := []
  rhsBatch := []
  wf := dot_S16384x32x256_S256x128_S16384x32x128_2_0_01_1_n_n_wf
def dot_S16384x128_S8x128_S16384x8_1_1_0_0_n_n : DotDims S16384x128 S8x128 S16384x8 where
  lhsContracting := [1]
  rhsContracting := [1]
  lhsNonContracting := [0]
  rhsNonContracting := [0]
  lhsBatch := []
  rhsBatch := []
  wf := dot_S16384x128_S8x128_S16384x8_1_1_0_0_n_n_wf
def dot_S16384x32x128_S8x128_S16384x32x8_2_1_01_0_n_n : DotDims S16384x32x128 S8x128 S16384x32x8 where
  lhsContracting := [2]
  rhsContracting := [1]
  lhsNonContracting := [0, 1]
  rhsNonContracting := [0]
  lhsBatch := []
  rhsBatch := []
  wf := dot_S16384x32x128_S8x128_S16384x32x8_2_1_01_0_n_n_wf
def dot_S16384x8x32_S16384x32x128_S16384x8x128_2_1_1_2_0_0 : DotDims S16384x8x32 S16384x32x128 S16384x8x128 where
  lhsContracting := [2]
  rhsContracting := [1]
  lhsNonContracting := [1]
  rhsNonContracting := [2]
  lhsBatch := [0]
  rhsBatch := [0]
  wf := dot_S16384x8x32_S16384x32x128_S16384x8x128_2_1_1_2_0_0_wf

class Facts : Prop extends Facts₀ where

variable [Facts]
-- ==== Proof.Spec.lean ====
/-
  The function both programs compute, stated once over the extended reals.

  For a node `b` with feature row `v = x0[b, ·]` and 32 neighbours with feature rows `nb n = x1[b, n, ·]`:
  every row is projected by the 256 × 128 matrix `W` (`proj`); head `h` scores the node's projection against
  the first 128 entries of its attention row `A h` and a neighbour's projection against the last 128
  (`srcScore`, `dstScore`); the logit of neighbour `n` under head `h` is the leaky rectification of their sum;
  the coefficients are the softmax of the logits over the 32 neighbours, taken as
  `exp (logit - peak) / Σ exp (logit - peak)` with `peak` the largest logit; the head's output on channel `c` is
  the coefficient-weighted sum of the neighbours' projections plus the bias entry `h * 128 + c`.
  `heads` is that value as a [16384, 8, 128] array and `result` the same numbers laid out as [1, 16384, 1024].
  No law of arithmetic is needed to bring either program to this form: both compute exactly these sums, in this
  order of factors, so nothing here depends on the inputs being finite.
-/
import Idealize.ShloMosaic.PureOps.Ideal
import Idealize.ShloMosaic.PureOps.Ideal.Laws
import Idealize.ShloMosaic.Lib.ValueIdx

noncomputable section

open scoped BigOperators

namespace Cert.NeighbourAttention

open Idealize.ShloMosaic Idealize.ShloMosaic.ValueIdx

/-- The leaky rectifier: `x` where `x ≥ 0`, else `x` times the slope (the f32 word nearest 0.2). -/
def leaky (x : EReal) : EReal :=
  Scalar.select (Ideal.cmp .oge x (Ideal.ofBits .f32 0x00000000#32)) x (Ideal.ofBits .f32 0x3E4CCCCD#32 * x)

/-- Column `c` of the first half of an attention row. -/
def lo (c : Fin 128) : Fin 256 := ⟨c.val, by omega⟩
/-- Column `c` of the second half of an attention row. -/
def hi (c : Fin 128) : Fin 256 := ⟨128 + c.val, by omega⟩

section Row

variable (W : Fin 256 → Fin 128 → EReal) (A : Fin 8 → Fin 256 → EReal)

/-- A feature row projected onto channel `c`. -/
def proj (v : Fin 256 → EReal) (c : Fin 128) : EReal := ∑ d : Fin 256, v d * W d c

/-- Head `h`'s score of the node's own projection. -/
def srcScore (v : Fin 256 → EReal) (h : Fin 8) : EReal := ∑ c : Fin 128, proj W v c * A h (lo c)

/-- Head `h`'s score of one neighbour's projection. -/
def dstScore (u : Fin 256 → EReal) (h : Fin 8) : EReal := ∑ c : Fin 128, proj W u c * A h (hi c)

variable (v : Fin 256 → EReal) (nb : Fin 32 → Fin 256 → EReal)

/-- The rectified attention logit of neighbour `n` under head `h`. -/
def logit (n : Fin 32) (h : Fin 8) : EReal := leaky (srcScore W A v h + dstScore W A (nb n) h)

/-- The largest logit of head `h` over the neighbours (from `-∞`). -/
def peak (h : Fin 8) : EReal :=
  (Finset.univ : Finset (Fin 32)).fold max (Ideal.ofBits .f32 0xFF800000#32) (fun n => logit W A v nb n h)

/-- The unnormalised softmax weight. -/
def weight (n : Fin 32) (h : Fin 8) : EReal := Ideal.exp (logit W A v nb n h - peak W A v nb h)

/-- The softmax normaliser. -/
def total (h : Fin 8) : EReal := ∑ n : Fin 32, weight W A v nb n h

/-- The attention coefficient of neighbour `n` under head `h`. -/
def coef (n : Fin 32) (h : Fin 8) : EReal := Ideal.div (weight W A v nb n h) (total W A v nb h)

/-- Head `h`'s weighted sum of the neighbours' projections on channel `c`. -/
def mix (h : Fin 8) (c : Fin 128) : EReal := ∑ n : Fin 32, coef W A v nb n h * proj W (nb n) c

end Row

/-- The flat bias position of head `h`, channel `c`. -/
def flat (h : Fin 8) (c : Fin 128) : Fin 1024 := ⟨h.val * 128 + c.val, by omega⟩

/-- The attention output per node, head and channel. -/
def heads (x0 : FVec Ideal ⟨2, ![16384, 256]⟩ .f32) (x1 : FVec Ideal ⟨3, ![16384, 32, 256]⟩ .f32)
    (w : FVec Ideal ⟨2, ![256, 128]⟩ .f32) (a : FVec Ideal ⟨3, ![1, 8, 256]⟩ .f32) (bias : FVec Ideal ⟨1, ![1024]⟩ .f32)
    (b : Fin 16384) (h : Fin 8) (c : Fin 128) : EReal :=
  mix (fun d c => w (ix2 d c)) (fun h k => a (ix3 (0 : Fin 1) h k)) (fun d => x0 (ix2 b d)) (fun n d => x1 (ix3 b n d)) h c
    + bias (ix1 (flat h c))

/-- The same numbers in the programs' result layout: entry `(0, b, h * 128 + c)`. -/
def result (x0 : FVec Ideal ⟨2, ![16384, 256]⟩ .f32) (x1 : FVec Ideal ⟨3, ![16384, 32, 256]⟩ .f32)
    (w : FVec Ideal ⟨2, ![256, 128]⟩ .f32) (a : FVec Ideal ⟨3, ![1, 8, 256]⟩ .f32) (bias : FVec Ideal ⟨1, ![1024]⟩ .f32) :
    FVec Ideal ⟨3, ![1, 16384, 1024]⟩ .f32 := fun i =>
  heads x0 x1 w a bias ⟨(i 1).val, (i 1).isLt⟩
    ⟨(i 2).val / 128, Nat.div_lt_of_lt_mul (show (i 2).val < 128 * 8 from (i 2).isLt)⟩
    ⟨(i 2).val % 128, Nat.mod_lt _ (by norm_num)⟩

end Cert.NeighbourAttention

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.KernelProducts.lean ====
/-
  The kernel body's four matrix products read at an entry: at the exact values each is, entry by entry, the plain
  sum over the shared axis of the left row times the right column (the accumulator is the zero matrix).
-/
import proofs.«109043_j1425929142443_2_alg».proof.Proof.Gen.KernelIdeal.Skeleton
import proofs.«109043_j1425929142443_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-! ### The 256 × 256 by 256 × 128 product -/

theorem nodeProj_lhs0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide),
    dif_pos (show (0 : Fin S256x256.rank) ∈ dot_S256x256_S256x128_S256x128_1_0_0_1_n_n.lhsNonContracting by decide)]
  rfl
theorem nodeProj_lhs1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
theorem nodeProj_rhs0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
theorem nodeProj_rhs1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide),
    dif_pos (show (1 : Fin S256x128.rank) ∈ dot_S256x256_S256x128_S256x128_1_0_0_1_n_n.rhsNonContracting by decide)]
  rfl

/-- Into a zero accumulator, entry (p, c) of the product is the sum over the shared axis of row p times column c. -/
theorem nodeProj_apply (l : FVec Ideal S256x256 .f32) (r : FVec Ideal S256x128 .f32) (p : Fin 256) (c : Fin 128) :
    matmul dot_S256x256_S256x128_S256x128_1_0_0_1_n_n none l r (constant S256x128 .f32 0x00000000#32) (ix2 p c)
      = ∑ k : Fin 256, l (ix2 p k) * r (ix2 k c) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 p c) ((contrEquiv1 dot_S256x256_S256x128_S256x128_1_0_0_1_n_n 256 rfl rfl).symm k) = ix2 p k := funext fun a => Fin.ext (by
    match a with
    | ⟨0, _⟩ => exact nodeProj_lhs0 _ _
    | ⟨1, _⟩ => exact (nodeProj_lhs1 _ _).trans hk)
  have er : dot_S256x256_S256x128_S256x128_1_0_0_1_n_n.rhsIdx (ix2 p c) ((contrEquiv1 dot_S256x256_S256x128_S256x128_1_0_0_1_n_n 256 rfl rfl).symm k) = ix2 k c := funext fun a => Fin.ext (by
    match a with
    | ⟨0, _⟩ => exact (nodeProj_rhs0 _ _).trans hk
    | ⟨1, _⟩ => exact nodeProj_rhs1 _ _)
  rw [el, er]

/-! ### The 256 × 128 by 128 × 8 product -/

theorem nodeScore_lhs0 (i : S256x8.Idx) (q : dot_S256x128_S128x8_S256x8_1_0_0_1_n_n.contr.Idx) : (dot_S256x128_S128x8_S256x8_1_0_0_1_n_n.lhsIdx i q 0).val = (i 0).val := by
  unfold DotDims.lhsIdx
  rw [dif_neg (show ¬(0 : Fin S256x128.rank) ∈ dot_S256x128_S128x8_S256x8_1_0_0_1_n_n.lhsBatch by decide),
    dif_pos (show (0 : Fin S256x128.rank) ∈ dot_S256x128_S128x8_S256x8_1_0_0_1_n_n.lhsNonContracting by decide)]
  rfl
theorem nodeScore_lhs1 (i : S256x8.Idx) (q : dot_S256x128_S128x8_S256x8_1_0_0_1_n_n.contr.Idx) : (dot_S256x128_S128x8_S256x8_1_0_0_1_n_n.lhsIdx i q 1).val = (q ⟨0, by decide⟩).val :=
  dot_S256x128_S128x8_S256x8_1_0_0_1_n_n.lhsIdx_val_of_single rfl i q
theorem nodeScore_rhs0 (i : S256x8.Idx) (q : dot_S256x128_S128x8_S256x8_1_0_0_1_n_n.contr.Idx) : (dot_S256x128_S128x8_S256x8_1_0_0_1_n_n.rhsIdx i q 0).val = (q ⟨0, by decide⟩).val :=
  dot_S256x128_S128x8_S256x8_1_0_0_1_n_n.rhsIdx_val_of_single rfl i q
theorem nodeScore_rhs1 (i : S256x8.Idx) (q : dot_S256x128_S128x8_S256x8_1_0_0_1_n_n.contr.Idx) : (dot_S256x128_S128x8_S256x8_1_0_0_1_n_n.rhsIdx i q 1).val = (i 1).val := by
  unfold DotDims.rhsIdx
  rw [dif_neg (show ¬(1 : Fin S128x8.rank) ∈ dot_S256x128_S128x8_S256x8_1_0_0_1_n_n.rhsBatch by decide),
    dif_pos (show (1 : Fin S128x8.rank) ∈ dot_S256x128_S128x8_S256x8_1_0_0_1_n_n.rhsNonContracting by decide)]
  rfl

/-- Into a zero accumulator, entry (p, c) of the product is the sum over the shared axis of row p times column c. -/
theorem nodeScore_apply (l : FVec Ideal S256x128 .f32) (r : FVec Ideal S128x8 .f32) (p : Fin 256) (c : Fin 8) :
    matmul dot_S256x128_S128x8_S256x8_1_0_0_1_n_n none l r (constant S256x8 .f32 0x00000000#32) (ix2 p c)
      = ∑ k : Fin 128, l (ix2 p k) * r (ix2 k c) := by
  simp only [matmul]
  rw [Ideal.matmul_constant_zero_apply, ← Equiv.sum_comp (contrEquiv1 dot_S256x128_S128x8_S256x8_1_0_0_1_n_n 128 rfl rfl).symm]
  refine Finset.sum_congr rfl fun k _ => ?_
  have hk := contrEquiv1_symm_val dot_S256x128_S128x8_S256x8_1_0_0_1_n_n 128 rfl rfl k
  have el : dot_S256x128_S128x8_S256x8_1_0_0_1_n_n.lhsIdx (ix2 p c) ((contrEquiv1 dot_S256x128_S128x8_S256x8_1_0_0_1_n_n 128 rfl rfl).symm k) = ix2 p k := funext fun a => Fin.ext (by
    match a with
    | ⟨0, _⟩ => exact nodeScore_lhs0 _ _
    | ⟨1, _⟩ => exact (nodeScore_lhs1 _ _).trans hk)
  have er : dot_S256x128_S128x8_S256x8_1_0_0_1_n_n.rhsIdx (ix2 p c) ((contrEquiv1 dot_S256x128_S128x8_S256x8_1_0_0_1_n_n 128 rfl rfl).symm k) = ix2 k c := funext fun a => Fin.ext (by
    match a with
    | ⟨0, _⟩ => exact (nodeScore_rhs0 _ _).trans hk
    | ⟨1, _⟩ => exact nodeScore_rhs1 _ _)
  rw [el, er]

/-! ### The 8192 × 256 by 256 × 128 product -/

theorem nbrProj_lhs0 (i : S8192x128.Idx) (q : dot_S8192x256_S256x128_S8192x128_1_0_0_1_n_n.contr.Idx) : (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide),
    dif_pos (show (0 : Fin S8192x256.rank) ∈ dot_S8192x256_S256x128_S8192x128_1_0_0_1_n_n.lhsNonContracting by decide)]
  rfl
theorem nbrProj_lhs1 (i : S8192x128.Idx) (q : dot_S8192x256_S256x128_S8192x128_1_0_0_1_n_n.contr.Idx) : (dot_S8192x256_S256x128_S8192x128_1_0_0_1_n_n.lhsIdx i q 1).val = (q ⟨0, by decide⟩).val :=
  dot_S8192x256_S256x128_S8192x128_1_0_0_1_n_n.lhsIdx_val_of_single rfl i q
theorem nbrProj_rhs0 (i : S8192x128.Idx) (q : dot_S8192x256_S256x128_S8192x128_1_0_0_1_n_n.contr.Idx) : (dot_S8192x256_S256x128_S8192x128_1_0_0_1_n_n.rhsIdx i q 0).val = (q ⟨0, by decide⟩).val :=
  dot_S8192x256_S256x128_S8192x128_1_0_0_1_n_n.rhsIdx_val_of_single rfl i q
theorem nbrProj_rhs1 (i : S8192x128.Idx) (q : dot_S8192x256_S256x128_S8192x128_1_0_0_1_n_n.contr.Idx) : (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide),
    dif_pos (show (1 : Fin S256x128.rank) ∈ dot_S8192x256_S256x128_S8192x128_1_0_0_1_n_n.rhsNonContracting by decide)]
  rfl

/-- Into a zero accumulator, entry (p, c) of the product is the sum over the shared axis of row p times column c. -/
theorem nbrProj_apply (l : FVec Ideal S8192x256 .bf16) (r : FVec Ideal S256x128 .bf16) (p : Fin 8192) (c : Fin 128) :
    matmul dot_S8192x256_S256x128_S8192x128_1_0_0_1_n_n none l r (constant S8192x128 .f32 0x00000000#32) (ix2 p c)
      = ∑ k : Fin 256, l (ix2 p k) * r (ix2 k c) := by
  simp only [matmul]
  rw [Ideal.matmul_constant_zero_apply, ← Equiv.sum_comp (contrEquiv1 dot_S8192x256_S256x128_S8192x128_1_0_0_1_n_n 256 rfl rfl).symm]
  refine Finset.sum_congr rfl fun k _ => ?_
  have hk := contrEquiv1_symm_val dot_S8192x256_S256x128_S8192x128_1_0_0_1_n_n 256 rfl rfl k
  have el : dot_S8192x256_S256x128_S8192x128_1_0_0_1_n_n.lhsIdx (ix2 p c) ((contrEquiv1 dot_S8192x256_S256x128_S8192x128_1_0_0_1_n_n 256 rfl rfl).symm k) = ix2 p k := funext fun a => Fin.ext (by
    match a with
    | ⟨0, _⟩ => exact nbrProj_lhs0 _ _
    | ⟨1, _⟩ => exact (nbrProj_lhs1 _ _).trans hk)
  have er : dot_S8192x256_S256x128_S8192x128_1_0_0_1_n_n.rhsIdx (ix2 p c) ((contrEquiv1 dot_S8192x256_S256x128_S8192x128_1_0_0_1_n_n 256 rfl rfl).symm k) = ix2 k c := funext fun a => Fin.ext (by
    match a with
    | ⟨0, _⟩ => exact (nbrProj_rhs0 _ _).trans hk
    | ⟨1, _⟩ => exact nbrProj_rhs1 _ _)
  rw [el, er]

/-! ### The 8192 × 128 by 128 × 8 product -/

theorem nbrScore_lhs0 (i : S8192x8.Idx) (q : dot_S8192x128_S128x8_S8192x8_1_0_0_1_n_n.contr.Idx) : (dot_S8192x128_S128x8_S8192x8_1_0_0_1_n_n.lhsIdx i q 0).val = (i 0).val := by
  unfold DotDims.lhsIdx
  rw [dif_neg (show ¬(0 : Fin S8192x128.rank) ∈ dot_S8192x128_S128x8_S8192x8_1_0_0_1_n_n.lhsBatch by decide),
    dif_pos (show (0 : Fin S8192x128.rank) ∈ dot_S8192x128_S128x8_S8192x8_1_0_0_1_n_n.lhsNonContracting by decide)]
  rfl
theorem nbrScore_lhs1 (i : S8192x8.Idx) (q : dot_S8192x128_S128x8_S8192x8_1_0_0_1_n_n.contr.Idx) : (dot_S8192x128_S128x8_S8192x8_1_0_0_1_n_n.lhsIdx i q 1).val = (q ⟨0, by decide⟩).val :=
  dot_S8192x128_S128x8_S8192x8_1_0_0_1_n_n.lhsIdx_val_of_single rfl i q
theorem nbrScore_rhs0 (i : S8192x8.Idx) (q : dot_S8192x128_S128x8_S8192x8_1_0_0_1_n_n.contr.Idx) : (dot_S8192x128_S128x8_S8192x8_1_0_0_1_n_n.rhsIdx i q 0).val = (q ⟨0, by decide⟩).val :=
  dot_S8192x128_S128x8_S8192x8_1_0_0_1_n_n.rhsIdx_val_of_single rfl i q
theorem nbrScore_rhs1 (i : S8192x8.Idx) (q : dot_S8192x128_S128x8_S8192x8_1_0_0_1_n_n.contr.Idx) : (dot_S8192x128_S128x8_S8192x8_1_0_0_1_n_n.rhsIdx i q 1).val = (i 1).val := by
  unfold DotDims.rhsIdx
  rw [dif_neg (show ¬(1 : Fin S128x8.rank) ∈ dot_S8192x128_S128x8_S8192x8_1_0_0_1_n_n.rhsBatch by decide),
    dif_pos (show (1 : Fin S128x8.rank) ∈ dot_S8192x128_S128x8_S8192x8_1_0_0_1_n_n.rhsNonContracting by decide)]
  rfl

/-- Into a zero accumulator, entry (p, c) of the product is the sum over the shared axis of row p times column c. -/
theorem nbrScore_apply (l : FVec Ideal S8192x128 .f32) (r : FVec Ideal S128x8 .f32) (p : Fin 8192) (c : Fin 8) :
    matmul dot_S8192x128_S128x8_S8192x8_1_0_0_1_n_n none l r (constant S8192x8 .f32 0x00000000#32) (ix2 p c)
      = ∑ k : Fin 128, l (ix2 p k) * r (ix2 k c) := by
  simp only [matmul]
  rw [Ideal.matmul_constant_zero_apply, ← Equiv.sum_comp (contrEquiv1 dot_S8192x128_S128x8_S8192x8_1_0_0_1_n_n 128 rfl rfl).symm]
  refine Finset.sum_congr rfl fun k _ => ?_
  have hk := contrEquiv1_symm_val dot_S8192x128_S128x8_S8192x8_1_0_0_1_n_n 128 rfl rfl k
  have el : dot_S8192x128_S128x8_S8192x8_1_0_0_1_n_n.lhsIdx (ix2 p c) ((contrEquiv1 dot_S8192x128_S128x8_S8192x8_1_0_0_1_n_n 128 rfl rfl).symm k) = ix2 p k := funext fun a => Fin.ext (by
    match a with
    | ⟨0, _⟩ => exact nbrScore_lhs0 _ _
    | ⟨1, _⟩ => exact (nbrScore_lhs1 _ _).trans hk)
  have er : dot_S8192x128_S128x8_S8192x8_1_0_0_1_n_n.rhsIdx (ix2 p c) ((contrEquiv1 dot_S8192x128_S128x8_S8192x8_1_0_0_1_n_n 128 rfl rfl).symm k) = ix2 k c := funext fun a => Fin.ext (by
    match a with
    | ⟨0, _⟩ => exact (nbrScore_rhs0 _ _).trans hk
    | ⟨1, _⟩ => exact nbrScore_rhs1 _ _)
  rw [el, er]

end Cert.KernelIdeal.Products

end
-- ==== Proof.KernelStages.lean ====
/-
  The kernel body's arithmetic on one block of 256 nodes, read entry by entry.

  The body's values are regrouped into named stages (the node projection, the two halves of the attention rows
  transposed, the two score products, the summed scores, the leaky rectification, the softmax over the neighbour
  axis, and one head's weighted sum plus bias); each printed payload is literally a composition of these stages.
  Every stage is then read at an entry (r, n, h) or (r, h, c) of the block as the corresponding quantity of the
  specification for node row r of the block: a matrix product as the sum over its shared axis, a reduction along the
  neighbour axis as the sum or the running maximum over the 32 neighbours, a layout change as the same entry under
  its new coordinates.
-/
import proofs.«109043_j1425929142443_2_alg».proof.Proof.Gen.KernelIdeal.Skeleton
import proofs.«109043_j1425929142443_2_alg».proof.Proof.Spec
import Idealize.ShloMosaic.Lib.ValueIdx
import Idealize.ShloMosaic.Lib.Pipeline.Value
import Idealize.ShloMosaic.PureOps.Ideal.Laws
import proofs.«109043_j1425929142443_2_alg».proof.Proof.LibRankThreeForms
import proofs.«109043_j1425929142443_2_alg».proof.Proof.KernelProducts
import Idealize.ShloMosaic.Lib.ValueLayout

noncomputable section

open scoped BigOperators

namespace Cert.KernelIdeal.Stages

open Cert.KernelIdeal Cert.KernelIdeal.Gen Cert.KernelIdeal.Products Cert.NeighbourAttention
open Idealize.ShloMosaic Idealize.ShloMosaic.ValueIdx

/-! ## The block's operands as functions of coordinates -/

/-- The projection matrix of the block. -/
abbrev Wf (v1 : FVec Ideal S256x128 .f32) : Fin 256 → Fin 128 → EReal := fun d c => v1 (ix2 d c)
/-- The attention rows of the block. -/
abbrev Af (v2 : FVec Ideal S1x8x256 .f32) : Fin 8 → Fin 256 → EReal := fun h k => v2 (ix3 (0 : Fin 1) h k)
/-- Node r's feature row. -/
abbrev nodeRow (v0 : FVec Ideal S256x256 .f32) (r : Fin 256) : Fin 256 → EReal := fun d => v0 (ix2 r d)
/-- Node r's neighbours' feature rows. -/
abbrev nbrRows (v10 : FVec Ideal S256x32x256 .f32) (r : Fin 256) : Fin 32 → Fin 256 → EReal := fun n d => v10 (ix3 r n d)

/-! ## Projections -/

/-- The nodes' projections. -/
def nodeProjV (v0 : FVec Ideal S256x256 .f32) (v1 : FVec Ideal S256x128 .f32) : FVec Ideal S256x128 .f32 :=
  matmul dot_S256x256_S256x128_S256x128_1_0_0_1_n_n none v0 v1 (constant S256x128 .f32 0x00000000#32)

theorem nodeProjV_apply (v0 : FVec Ideal S256x256 .f32) (v1 : FVec Ideal S256x128 .f32) (r : Fin 256) (c : Fin 128) :
    nodeProjV v0 v1 (ix2 r c) = proj (Wf v1) (nodeRow v0 r) c :=
  nodeProj_apply v0 v1 r c

/-- The neighbours' projections, the (node, neighbour) pairs on one axis: the rounding to the narrower format
    is the identity on exact values, so this is the plain product of the merged rows with the matrix. -/
theorem pay3_apply (v1 : FVec Ideal S256x128 .f32) (v10 : FVec Ideal S256x32x256 .f32) (r : Fin 256) (n : Fin 32)
    (c : Fin 128) (p : Fin 8192) (hp : p.val = r.val * 32 + n.val) :
    k0_pay3 (F := Ideal) v1 v10 (ix2 p c) = proj (Wf v1) (nbrRows v10 r n) c := by
  unfold k0_pay3
  rw [nbrProj_apply]
  refine Finset.sum_congr rfl fun d _ => ?_
  rw [truncf_apply, truncf_apply, shapeCast_abc_pc_apply v10 _ r n d p hp]

/-- The same with the pairs split back into (node, neighbour). -/
theorem pay4_apply (v1 : FVec Ideal S256x128 .f32) (v10 : FVec Ideal S256x32x256 .f32) (r : Fin 256) (n : Fin 32)
    (c : Fin 128) : k0_pay4 (F := Ideal) v1 v10 (ix3 r n c) = proj (Wf v1) (nbrRows v10 r n) c := by
  unfold k0_pay4
  rw [shapeCast_pc_abc_apply _ _ r n c ⟨r.val * 32 + n.val, by omega⟩ rfl]
  exact pay3_apply v1 v10 r n c _ rfl

/-! ## The attention rows' two halves, transposed -/

/-- The first halves of the attention rows, transposed to [128, 8]. -/
def attnSrcT (v2 : FVec Ideal S1x8x256 .f32) : FVec Ideal S128x8 .f32 :=
  transpose S128x8 [1, 0] (extractStridedSlice S8x128 ![0, 0] (shapeCast S8x256 v2 shapeCasts_S1x8x256_S8x256)
    slices_S8x256_o0_0_S8x128) transposes_S8x128_p1_0_S128x8

/-- The second halves of the attention rows, transposed to [128, 8]. -/
def attnDstT (v2 : FVec Ideal S1x8x256 .f32) : FVec Ideal S128x8 .f32 :=
  transpose S128x8 [1, 0] (extractStridedSlice S8x128 ![0, 128] (shapeCast S8x256 v2 shapeCasts_S1x8x256_S8x256)
    slices_S8x256_o0_128_S8x128) transposes_S8x128_p1_0_S128x8

theorem attnSrcT_apply (v2 : FVec Ideal S1x8x256 .f32) (c : Fin 128) (h : Fin 8) :
    attnSrcT v2 (ix2 c h) = Af v2 h (lo c) := by
  unfold attnSrcT
  rw [transpose_ix2_apply, slice2_axis1_eq, shapeCast_1ab_ab_apply]
  exact congrArg v2 (congrArg (ix3 (0 : Fin 1) h) (Fin.ext (Nat.zero_add _)))

theorem attnDstT_apply (v2 : FVec Ideal S1x8x256 .f32) (c : Fin 128) (h : Fin 8) :
    attnDstT v2 (ix2 c h) = Af v2 h (hi c) := by
  unfold attnDstT
  rw [transpose_ix2_apply, slice2_axis1_eq, shapeCast_1ab_ab_apply]
  rfl

/-! ## Scores -/

/-- Each head's score of each node's own projection. -/
def srcScoreV (v0 : FVec Ideal S256x256 .f32) (v1 : FVec Ideal S256x128 .f32) (v2 : FVec Ideal S1x8x256 .f32) :
    FVec Ideal S256x8 .f32 :=
  matmul dot_S256x128_S128x8_S256x8_1_0_0_1_n_n none (nodeProjV v0 v1) (attnSrcT v2) (constant S256x8 .f32 0x00000000#32)

theorem srcScoreV_apply (v0 : FVec Ideal S256x256 .f32) (v1 : FVec Ideal S256x128 .f32) (v2 : FVec Ideal S1x8x256 .f32)
    (r : Fin 256) (h : Fin 8) : srcScoreV v0 v1 v2 (ix2 r h) = srcScore (Wf v1) (Af v2) (nodeRow v0 r) h := by
  unfold srcScoreV srcScore
  rw [nodeScore_apply]
  refine Finset.sum_congr rfl fun c _ => ?_
  rw [nodeProjV_apply, attnSrcT_apply]

/-- Each head's score of each neighbour's projection. -/
def dstScoreV (v1 : FVec Ideal S256x128 .f32) (v2 : FVec Ideal S1x8x256 .f32) (v10 : FVec Ideal S256x32x256 .f32) :
    FVec Ideal S256x32x8 .f32 :=
  shapeCast S256x32x8 (matmul dot_S8192x128_S128x8_S8192x8_1_0_0_1_n_n none (k0_pay3 (F := Ideal) v1 v10) (attnDstT v2)
    (constant S8192x8 .f32 0x00000000#32)) shapeCasts_S8192x8_S256x32x8

theorem dstScoreV_apply (v1 : FVec Ideal S256x128 .f32) (v2 : FVec Ideal S1x8x256 .f32) (v10 : FVec Ideal S256x32x256 .f32)
    (r : Fin 256) (n : Fin 32) (h : Fin 8) :
    dstScoreV v1 v2 v10 (ix3 r n h) = dstScore (Wf v1) (Af v2) (nbrRows v10 r n) h := by
  unfold dstScoreV dstScore
  rw [shapeCast_pc_abc_apply _ _ r n h ⟨r.val * 32 + n.val, by omega⟩ rfl, nbrScore_apply]
  refine Finset.sum_congr rfl fun c _ => ?_
  rw [pay3_apply v1 v10 r n c _ rfl, attnDstT_apply]

/-- The node's score repeated along the neighbour axis, plus the neighbours' scores. -/
def scoresV (v0 : FVec Ideal S256x256 .f32) (v1 : FVec Ideal S256x128 .f32) (v2 : FVec Ideal S1x8x256 .f32)
    (v10 : FVec Ideal S256x32x256 .f32) : FVec Ideal S256x32x8 .f32 :=
  addf (broadcastTo S256x32x8 (shapeCast S256x1x8 (srcScoreV v0 v1 v2) shapeCasts_S256x8_S256x1x8)
    broadcasts_S256x1x8_S256x32x8) (dstScoreV v1 v2 v10)

theorem scoresV_apply (v0 : FVec Ideal S256x256 .f32) (v1 : FVec Ideal S256x128 .f32) (v2 : FVec Ideal S1x8x256 .f32)
    (v10 : FVec Ideal S256x32x256 .f32) (r : Fin 256) (n : Fin 32) (h : Fin 8) :
    scoresV v0 v1 v2 v10 (ix3 r n h)
      = srcScore (Wf v1) (Af v2) (nodeRow v0 r) h + dstScore (Wf v1) (Af v2) (nbrRows v10 r n) h := by
  unfold scoresV
  rw [addf_apply, broadcastTo_a1c_abc_apply, shapeCast_ac_a1c_apply, srcScoreV_apply, dstScoreV_apply]

/-! ## Rectification and the softmax over the neighbour axis -/

/-- The leaky rectifier, entry by entry. -/
def rectV (s : FVec Ideal S256x32x8 .f32) : FVec Ideal S256x32x8 .f32 :=
  select (cmpf .oge s (broadcast S256x32x8 (Scalar.ofBits .f32 0x00000000#32))) s
    (mulf (broadcast S256x32x8 (Scalar.ofBits .f32 0x3E4CCCCD#32)) s)

theorem rectV_apply (s : FVec Ideal S256x32x8 .f32) (i : S256x32x8.Idx) : rectV s i = leaky (s i) := rfl

/-- The largest entry along the neighbour axis, repeated along it. -/
def colMaxV (x : FVec Ideal S256x32x8 .f32) : FVec Ideal S256x32x8 .f32 :=
  broadcastTo S256x32x8 (shapeCast S256x1x8 (multiReduction .maximumf [1] S256x8 x 0xFF800000#32
    reduces_S256x32x8_S256x8 (.inl rfl) rfl) shapeCasts_S256x8_S256x1x8) broadcasts_S256x1x8_S256x32x8

theorem colMaxV_apply (x : FVec Ideal S256x32x8 .f32) (r : Fin 256) (n : Fin 32) (h : Fin 8) :
    colMaxV x (ix3 r n h)
      = (Finset.univ : Finset (Fin 32)).fold max (Ideal.ofBits .f32 0xFF800000#32) (fun n' => x (ix3 r n' h)) := by
  unfold colMaxV
  rw [broadcastTo_a1c_abc_apply, shapeCast_ac_a1c_apply]
  refine (Ideal.multiReduction_maximumf_single x _ reduces_S256x32x8_S256x8 _ _ (ix2 r h)).trans ?_
  have e : (x ∘ reduces_S256x32x8_S256x8.lift (ix2 r h)) = fun n' : Fin 32 => x (ix3 r n' h) :=
    funext fun n' => congrArg x (funext fun a => Fin.ext (by
      match a with
      | ⟨0, _⟩ => rfl
      | ⟨1, _⟩ => rfl
      | ⟨2, _⟩ => rfl))
  rw [e]
  rfl

/-- The sum along the neighbour axis, repeated along it. -/
def colSumV (x : FVec Ideal S256x32x8 .f32) : FVec Ideal S256x32x8 .f32 :=
  broadcastTo S256x32x8 (shapeCast S256x1x8 (multiReduction .add [1] S256x8 x 0x00000000#32
    reduces_S256x32x8_S256x8 (.inl rfl) rfl) shapeCasts_S256x8_S256x1x8) broadcasts_S256x1x8_S256x32x8

theorem colSumV_apply (x : FVec Ideal S256x32x8 .f32) (r : Fin 256) (n : Fin 32) (h : Fin 8) :
    colSumV x (ix3 r n h) = ∑ n' : Fin 32, x (ix3 r n' h) := by
  unfold colSumV
  rw [broadcastTo_a1c_abc_apply, shapeCast_ac_a1c_apply]
  refine (Ideal.multiReduction_add_single x _ reduces_S256x32x8_S256x8 _ _ (ix2 r h)).trans ?_
  refine Finset.sum_congr rfl fun n' _ => congrArg x (funext fun a => Fin.ext (by
    match a with
    | ⟨0, _⟩ => rfl
    | ⟨1, _⟩ => rfl
    | ⟨2, _⟩ => rfl))

/-- The exponentials of the entries less their largest along the neighbour axis. -/
def expShiftV (x : FVec Ideal S256x32x8 .f32) : FVec Ideal S256x32x8 .f32 := exp (subf x (colMaxV x))

/-- The softmax along the neighbour axis. -/
def softmaxV (x : FVec Ideal S256x32x8 .f32) : FVec Ideal S256x32x8 .f32 := divf (expShiftV x) (colSumV (expShiftV x))

/-- The coefficients' payload is the softmax of the rectified scores. -/
theorem pay5_eq (v0 : FVec Ideal S256x256 .f32) (v1 : FVec Ideal S256x128 .f32) (v2 : FVec Ideal S1x8x256 .f32)
    (v10 : FVec Ideal S256x32x256 .f32) : k0_pay5 (F := Ideal) v0 v1 v2 v10 = softmaxV (rectV (scoresV v0 v1 v2 v10)) := rfl

theorem rect_scores_apply (v0 : FVec Ideal S256x256 .f32) (v1 : FVec Ideal S256x128 .f32) (v2 : FVec Ideal S1x8x256 .f32)
    (v10 : FVec Ideal S256x32x256 .f32) (r : Fin 256) (n : Fin 32) (h : Fin 8) :
    rectV (scoresV v0 v1 v2 v10) (ix3 r n h) = logit (Wf v1) (Af v2) (nodeRow v0 r) (nbrRows v10 r) n h := by
  rw [rectV_apply, scoresV_apply]
  rfl

theorem expShift_apply (v0 : FVec Ideal S256x256 .f32) (v1 : FVec Ideal S256x128 .f32) (v2 : FVec Ideal S1x8x256 .f32)
    (v10 : FVec Ideal S256x32x256 .f32) (r : Fin 256) (n : Fin 32) (h : Fin 8) :
    expShiftV (rectV (scoresV v0 v1 v2 v10)) (ix3 r n h) = weight (Wf v1) (Af v2) (nodeRow v0 r) (nbrRows v10 r) n h := by
  show Ideal.exp (rectV (scoresV v0 v1 v2 v10) (ix3 r n h) - colMaxV (rectV (scoresV v0 v1 v2 v10)) (ix3 r n h)) = _
  rw [colMaxV_apply, rect_scores_apply]
  unfold weight peak
  refine congrArg (fun z => Ideal.exp (_ - Finset.univ.fold max _ z)) (funext fun n' => ?_)
  exact rect_scores_apply v0 v1 v2 v10 r n' h

/-- The coefficients at (r, n, h): the specification's attention coefficient for node row r. -/
theorem pay5_apply (v0 : FVec Ideal S256x256 .f32) (v1 : FVec Ideal S256x128 .f32) (v2 : FVec Ideal S1x8x256 .f32)
    (v10 : FVec Ideal S256x32x256 .f32) (r : Fin 256) (n : Fin 32) (h : Fin 8) :
    k0_pay5 (F := Ideal) v0 v1 v2 v10 (ix3 r n h) = coef (Wf v1) (Af v2) (nodeRow v0 r) (nbrRows v10 r) n h := by
  rw [pay5_eq]
  unfold softmaxV coef total
  rw [divf_apply, colSumV_apply, expShift_apply]
  refine congrArg (Ideal.div _) (Finset.sum_congr rfl fun n' _ => ?_)
  exact expShift_apply v0 v1 v2 v10 r n' h

/-! ## One head's output -/

/-- Head column `o` of the coefficients, as a [256, 32, 1] array (the two casts drop and restore the unit axis). -/
def colOf (o : Nat) (v34 : FVec Ideal S256x32x8 .f32) (ho : S256x32x8.Slices ![0, 0, o] S256x32x1) :
    FVec Ideal S256x32x1 .f32 :=
  shapeCast S256x32x1 (shapeCast S256x32 (extractStridedSlice S256x32x1 ![0, 0, o] v34 ho) shapeCasts_S256x32x1_S256x32)
    shapeCasts_S256x32_S256x32x1

theorem colOf_apply (o : Nat) (v34 : FVec Ideal S256x32x8 .f32) (ho : S256x32x8.Slices ![0, 0, o] S256x32x1)
    (r : Fin 256) (n : Fin 32) (u : Fin 1) (k : Fin 8) (hk : k.val = o) :
    colOf o v34 ho (ix3 r n u) = v34 (ix3 r n k) := by
  unfold colOf
  rw [shapeCast_ab_ab1_apply, shapeCast_ab1_ab_apply, slice3_axis2_apply o v34 ho r n (0 : Fin 1) k (by rw [hk]; rfl)]

/-- The coefficient column times the neighbours' projections, summed over the neighbours, plus the bias row, with a
    unit head axis added. -/
def headV (v14 : FVec Ideal S256x32x128 .f32) (col : FVec Ideal S256x32x1 .f32) (brow : FVec Ideal S1x128 .f32) :
    FVec Ideal S256x1x128 .f32 :=
  shapeCast S256x1x128 (addf (multiReduction .add [1] S256x128 (mulf (broadcastTo S256x32x128 col
    broadcasts_S256x32x1_S256x32x128) v14) 0x00000000#32 reduces_S256x32x128_S256x128 (.inl rfl) rfl)
    (broadcastTo S256x128 (shapeCast S1x128 (shapeCast S128 brow shapeCasts_S1x128_S128) shapeCasts_S128_S1x128)
      broadcasts_S1x128_S256x128)) shapeCasts_S256x128_S256x1x128

theorem headV_apply (v14 : FVec Ideal S256x32x128 .f32) (col : FVec Ideal S256x32x1 .f32) (brow : FVec Ideal S1x128 .f32)
    (r : Fin 256) (u : Fin 1) (c : Fin 128) :
    headV v14 col brow (ix3 r u c)
      = (∑ n : Fin 32, col (ix3 r n (0 : Fin 1)) * v14 (ix3 r n c)) + brow (ix2 (0 : Fin 1) c) := by
  unfold headV
  rw [shapeCast_ac_a1c_apply, addf_apply, broadcastTo_1b_ab_apply, shapeCast_shapeCast]
  refine congrArg (· + brow (ix2 (0 : Fin 1) c)) ?_
  refine (Ideal.multiReduction_add_single _ _ reduces_S256x32x128_S256x128 _ _ (ix2 r c)).trans ?_
  have e : ∀ n : Fin 32, reduces_S256x32x128_S256x128.lift (ix2 r c) n = ix3 r n c := fun n => funext fun a => Fin.ext (by
    match a with
    | ⟨0, _⟩ => rfl
    | ⟨1, _⟩ => rfl
    | ⟨2, _⟩ => rfl)
  have key : ∀ n : Fin 32, mulf (broadcastTo S256x32x128 col broadcasts_S256x32x1_S256x32x128) v14
      (reduces_S256x32x128_S256x128.lift (ix2 r c) n) = col (ix3 r n (0 : Fin 1)) * v14 (ix3 r n c) := fun n => by
    rw [e n, mulf_apply, broadcastTo_ab1_abc_apply]
  exact Finset.sum_congr rfl fun n _ => key n

/-- The eight stored payloads are the eight heads' outputs. -/
theorem pay7_eq (v0 : FVec Ideal S256x256 .f32) (v1 : FVec Ideal S256x128 .f32) (v2 : FVec Ideal S1x8x256 .f32)
    (v10 : FVec Ideal S256x32x256 .f32) (b : FVec Ideal S1x128 .f32) :
    k0_pay7 (F := Ideal) (k0_pay6 v0 v1 v2 v10) b
      = headV (k0_pay4 v1 v10) (colOf 0 (k0_pay5 v0 v1 v2 v10) slices_S256x32x8_o0_0_0_S256x32x1) b := rfl
theorem pay8_eq (v14 : FVec Ideal S256x32x128 .f32) (v34 : FVec Ideal S256x32x8 .f32) (b : FVec Ideal S1x128 .f32) :
    k0_pay8 (F := Ideal) v14 v34 b = headV v14 (colOf 1 v34 slices_S256x32x8_o0_0_1_S256x32x1) b := rfl
theorem pay9_eq (v14 : FVec Ideal S256x32x128 .f32) (v34 : FVec Ideal S256x32x8 .f32) (b : FVec Ideal S1x128 .f32) :
    k0_pay9 (F := Ideal) v14 v34 b = headV v14 (colOf 2 v34 slices_S256x32x8_o0_0_2_S256x32x1) b := rfl
theorem pay11_eq (v14 : FVec Ideal S256x32x128 .f32) (v34 : FVec Ideal S256x32x8 .f32) (b : FVec Ideal S1x128 .f32) :
    k0_pay11 (F := Ideal) v14 (k0_pay10 v34) b = headV v14 (colOf 3 v34 slices_S256x32x8_o0_0_3_S256x32x1) b := rfl
theorem pay12_eq (v14 : FVec Ideal S256x32x128 .f32) (v34 : FVec Ideal S256x32x8 .f32) (b : FVec Ideal S1x128 .f32) :
    k0_pay12 (F := Ideal) v14 v34 b = headV v14 (colOf 4 v34 slices_S256x32x8_o0_0_4_S256x32x1) b := rfl
theorem pay13_eq (v14 : FVec Ideal S256x32x128 .f32) (v34 : FVec Ideal S256x32x8 .f32) (b : FVec Ideal S1x128 .f32) :
    k0_pay13 (F := Ideal) v14 v34 b = headV v14 (colOf 5 v34 slices_S256x32x8_o0_0_5_S256x32x1) b := rfl
theorem pay1_eq (v14 : FVec Ideal S256x32x128 .f32) (v34 : FVec Ideal S256x32x8 .f32) (b : FVec Ideal S1x128 .f32) :
    k0_pay1 (F := Ideal) v14 v34 b = headV v14 (colOf 6 v34 slices_S256x32x8_o0_0_6_S256x32x1) b := rfl
theorem pay2_eq (v14 : FVec Ideal S256x32x128 .f32) (v34 : FVec Ideal S256x32x8 .f32) (b : FVec Ideal S1x128 .f32) :
    k0_pay2 (F := Ideal) v14 v34 b = headV v14 (colOf 7 v34 slices_S256x32x8_o0_0_7_S256x32x1) b := rfl

/-- Head h's output for node row r on channel c, from the block's operands: the specification's weighted sum, plus
    the bias row's entry. -/
theorem head_apply (v0 : FVec Ideal S256x256 .f32) (v1 : FVec Ideal S256x128 .f32) (v2 : FVec Ideal S1x8x256 .f32)
    (v10 : FVec Ideal S256x32x256 .f32) (b : FVec Ideal S1x128 .f32) (o : Nat)
    (ho : S256x32x8.Slices ![0, 0, o] S256x32x1) (h : Fin 8) (hh : h.val = o) (r : Fin 256) (u : Fin 1) (c : Fin 128) :
    headV (k0_pay4 (F := Ideal) v1 v10) (colOf o (k0_pay5 (F := Ideal) v0 v1 v2 v10) ho) b (ix3 r u c)
      = mix (Wf v1) (Af v2) (nodeRow v0 r) (nbrRows v10 r) h c + b (ix2 (0 : Fin 1) c) := by
  rw [headV_apply]
  refine congrArg (· + b (ix2 (0 : Fin 1) c)) ?_
  unfold mix
  refine Finset.sum_congr rfl fun n _ => ?_
  rw [colOf_apply o _ ho r n (0 : Fin 1) h hh, pay5_apply, pay4_apply]

end Cert.KernelIdeal.Stages

end
-- ==== Proof.KernelBlock.lean ====
/-
  What the kernel body leaves in the output block of one grid point, as one function of the point's input blocks:
  entry (r, h, c) is head h's weighted sum of the projections of node row r's neighbours on channel c, plus
  entry (h, c) of the bias block. The body writes the block as eight row-slabs, one per head; each slab's payload is
  that function restricted to the slab, so the eight stores together leave the function itself.
-/
import proofs.«109043_j1425929142443_2_alg».proof.Proof.Gen.KernelIdeal.Skeleton
import proofs.«109043_j1425929142443_2_alg».proof.Proof.Spec
import Idealize.ShloMosaic.Lib.ValueIdx
import Idealize.ShloMosaic.Lib.Pipeline.Value
import Idealize.ShloMosaic.PureOps.Ideal.Laws
import proofs.«109043_j1425929142443_2_alg».proof.Proof.Gen.KernelIdeal.Frame
import proofs.«109043_j1425929142443_2_alg».proof.Proof.KernelStages

noncomputable section

open scoped BigOperators

namespace Cert.KernelIdeal.Block

open Cert.KernelIdeal Cert.KernelIdeal.Gen Cert.KernelIdeal.Stages Cert.NeighbourAttention
open Idealize.ShloMosaic Idealize.ShloMosaic.ValueIdx

/-- Head h's output for node row r of the block on channel c. -/
def blockOutAt (x0 : FVec Ideal S256x256 .f32) (x1 : FVec Ideal S256x32x256 .f32) (x2 : FVec Ideal S256x128 .f32)
    (x3 : FVec Ideal S1x8x256 .f32) (x4 : FVec Ideal S8x128 .f32) (r : Fin 256) (h : Fin 8) (c : Fin 128) : EReal :=
  mix (Wf x2) (Af x3) (nodeRow x0 r) (nbrRows x1 r) h c + x4 (ix2 h c)

/-- The output block as an array. -/
def blockOut (x0 : FVec Ideal S256x256 .f32) (x1 : FVec Ideal S256x32x256 .f32) (x2 : FVec Ideal S256x128 .f32)
    (x3 : FVec Ideal S1x8x256 .f32) (x4 : FVec Ideal S8x128 .f32) : FVec Ideal S256x8x128 .f32 := fun y =>
  blockOutAt x0 x1 x2 x3 x4 ⟨(y 0).val, (y 0).isLt⟩ ⟨(y 1).val, (y 1).isLt⟩ ⟨(y 2).val, (y 2).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The slab of head `o`: local entry (r, 0, c) sits at (r, o, c) of the block. -/
theorem emb_slab (o : Nat) (inb : ∀ a, (![0, o, 0] : Fin 3 → Nat) a + S256x1x128.size a ≤ S256x8x128.size a)
    (r : Fin 256) (u : Fin 1) (c : Fin 128) (h : Fin 8) (hh : h.val = o) :
    (Rect.unit (s := S256x8x128) ![0, o, 0] S256x1x128.size inb).emb (ix3 r u c) = ix3 r h c := by
  funext a
  apply Fin.ext
  match a with
  | ⟨0, _⟩ => show 0 + 1 * r.val = r.val; omega
  | ⟨1, _⟩ => show o + 1 * u.val = h.val; omega
  | ⟨2, _⟩ => show 0 + 1 * c.val = c.val; omega

/-- Row `o` of the bias block: local entry (0, c) sits at (o, c). -/
theorem idx_row (o : Nat) (inb : ∀ a, (![o, 0] : Fin 2 → Nat) a + S1x128.size a ≤ S8x128.size a)
    (u : Fin 1) (c : Fin 128) (h : Fin 8) (hh : h.val = o) :
    (Rect.unit (s := S8x128) ![o, 0] S1x128.size inb).idx (ix2 u c) = ix2 h c := by
  funext a
  apply Fin.ext
  match a with
  | ⟨0, _⟩ => show o + 1 * u.val = h.val; omega
  | ⟨1, _⟩ => show 0 + 1 * c.val = c.val; omega

/-- One head's slab holds the block function there. -/
theorem slab_ok (x0 : FVec Ideal S256x256 .f32) (x1 : FVec Ideal S256x32x256 .f32) (x2 : FVec Ideal S256x128 .f32)
    (x3 : FVec Ideal S1x8x256 .f32) (x4 : FVec Ideal S8x128 .f32) (o : Nat) (h : Fin 8) (hh : h.val = o)
    (inb : ∀ a, (![0, o, 0] : Fin 3 → Nat) a + S256x1x128.size a ≤ S256x8x128.size a)
    (inb' : ∀ a, (![o, 0] : Fin 2 → Nat) a + S1x128.size a ≤ S8x128.size a)
    (ho : S256x32x8.Slices ![0, 0, o] S256x32x1)
    (x : (Rect.unit (s := S256x8x128) ![0, o, 0] S256x1x128.size inb).shape.Idx) :
    headV (k0_pay4 (F := Ideal) x2 x1) (colOf o (k0_pay5 (F := Ideal) x0 x2 x3 x1) ho)
        (View.ld (Val := Elt Ideal) (e' := EltTy.f32) x4 (Rect.unit (s := S8x128) ![o, 0] S1x128.size inb')) x
      = blockOut x0 x1 x2 x3 x4 ((Rect.unit (s := S256x8x128) ![0, o, 0] S256x1x128.size inb).emb x) := by
  obtain ⟨r, u, c, rfl⟩ : ∃ (r : Fin 256) (u : Fin 1) (c : Fin 128), x = ix3 r u c := ⟨x 0, x 1, x 2, eq_ix3 x⟩
  rw [emb_slab o inb r u c h hh, head_apply x0 x2 x3 x1 _ o ho h hh r u c]
  show _ + x4 ((Rect.unit (s := S8x128) ![o, 0] S1x128.size inb').idx (ix2 (0 : Fin 1) c)) = _
  rw [idx_row o inb' (0 : Fin 1) c h hh]
  rfl

/-- THE OUTPUT BLOCK after the body is the block function of the input blocks. -/
theorem out0_5_eq (x0 : FVec Ideal S256x256 .f32) (x1 : FVec Ideal S256x32x256 .f32) (x2 : FVec Ideal S256x128 .f32)
    (x3 : FVec Ideal S1x8x256 .f32) (x4 : FVec Ideal S8x128 .f32) :
    out0_5 (F := Ideal) x0 x1 x2 x3 x4 = blockOut x0 x1 x2 x3 x4 := by
  funext y
  unfold out0_5
  simp only [View.ld_unit_zero (S := S256x256) hz2, View.ld_unit_zero (S := S256x128) hz2,
    View.ld_unit_zero (S := S1x8x256) hz3, View.ld_unit_zero (S := S256x32x256) hz3]
  refine View.canon_apply_of_pieces (Val := Elt Ideal) (blockOut x0 x1 x2 x3 x4) _ ?_ y (cover0_5 _ _ _ _ _ _ _ _ y)
  intro p hp
  simp only [List.mem_cons, List.mem_nil_iff, or_false] at hp
  rcases hp with rfl | rfl | rfl | rfl | rfl | rfl | rfl | rfl
  · intro x; rw [pay2_eq]
    exact slab_ok x0 x1 x2 x3 x4 7 7 rfl inb_S256x8x128_S256x1x128_0_7_0 inb_S8x128_S1x128_7_0
      slices_S256x32x8_o0_0_7_S256x32x1 x
  · intro x; rw [pay1_eq]
    exact slab_ok x0 x1 x2 x3 x4 6 6 rfl inb_S256x8x128_S256x1x128_0_6_0 inb_S8x128_S1x128_6_0
      slices_S256x32x8_o0_0_6_S256x32x1 x
  · intro x; rw [pay13_eq]
    exact slab_ok x0 x1 x2 x3 x4 5 5 rfl inb_S256x8x128_S256x1x128_0_5_0 inb_S8x128_S1x128_5_0
      slices_S256x32x8_o0_0_5_S256x32x1 x
  · intro x; rw [pay12_eq]
    exact slab_ok x0 x1 x2 x3 x4 4 4 rfl inb_S256x8x128_S256x1x128_0_4_0 inb_S8x128_S1x128_4_0
      slices_S256x32x8_o0_0_4_S256x32x1 x
  · intro x; rw [pay11_eq]
    exact slab_ok x0 x1 x2 x3 x4 3 3 rfl inb_S256x8x128_S256x1x128_0_3_0 inb_S8x128_S1x128_3_0
      slices_S256x32x8_o0_0_3_S256x32x1 x
  · intro x; rw [pay9_eq]
    exact slab_ok x0 x1 x2 x3 x4 2 2 rfl inb_S256x8x128_S256x1x128_0_2_0 inb_S8x128_S1x128_2_0
      slices_S256x32x8_o0_0_2_S256x32x1 x
  · intro x; rw [pay8_eq]
    exact slab_ok x0 x1 x2 x3 x4 1 1 rfl inb_S256x8x128_S256x1x128_0_1_0 inb_S8x128_S1x128_1_0
      slices_S256x32x8_o0_0_1_S256x32x1 x
  · intro x; rw [pay7_eq]
    exact slab_ok x0 x1 x2 x3 x4 0 0 rfl inb_S256x8x128_S256x1x128_0_0_0 inb_S8x128_S1x128_0_0
      slices_S256x32x8_o0_0_0_S256x32x1 x

end Cert.KernelIdeal.Block

end
-- ==== Proof.KernelArray.lean ====
/-
  From blocks to the array. Grid point t handles nodes 256·t … 256·t + 255: its blocks of the node and neighbour
  features are those rows of the arguments, its blocks of the projection matrix, the attention rows and the bias
  (the flat bias cast to [8, 128] before the kernel is launched) are the whole arrays. So what point t writes back is
  rows 256·t … 256·t + 255 of ONE array function of the arguments, the specification's `heads`; the 64 blocks tile the
  [16384, 8, 128] result, which therefore ends holding `heads`.
-/
import proofs.«109043_j1425929142443_2_alg».proof.Proof.Gen.KernelIdeal.Skeleton
import proofs.«109043_j1425929142443_2_alg».proof.Proof.Spec
import Idealize.ShloMosaic.Lib.ValueIdx
import Idealize.ShloMosaic.Lib.Pipeline.Value
import Idealize.ShloMosaic.PureOps.Ideal.Laws
import proofs.«109043_j1425929142443_2_alg».proof.Proof.Gen.KernelIdeal.Frame
import proofs.«109043_j1425929142443_2_alg».proof.Proof.KernelBlock
import Idealize.ShloMosaic.Lib.StableHlo.Run

noncomputable section

open scoped BigOperators

namespace Cert.KernelIdeal.Arr

open Cert.KernelIdeal Cert.KernelIdeal.Gen Cert.KernelIdeal.Block Cert.KernelIdeal.Stages Cert.NeighbourAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument arrays as launched. -/
abbrev a0 (c : Dev nD) : FVec Ideal S16384x256 .f32 := m ((c : Thread nD τ).loc main_arg0)
abbrev a1 (c : Dev nD) : FVec Ideal S16384x32x256 .f32 := m ((c : Thread nD τ).loc main_arg1)
abbrev a2 (c : Dev nD) : FVec Ideal S256x128 .f32 := m ((c : Thread nD τ).loc main_arg2)
abbrev a3 (c : Dev nD) : FVec Ideal S1x8x256 .f32 := m ((c : Thread nD τ).loc main_arg3)
abbrev a4 (c : Dev nD) : FVec Ideal S1024 .f32 := m ((c : Thread nD τ).loc main_arg4)

/-- The [16384, 8, 128] array the kernel's result ends holding. -/
def G5 (c : Dev nD) : FVec Ideal S16384x8x128 .f32 := fun i =>
  heads (a0 m c) (a1 m c) (a2 m c) (a3 m c) (a4 m c) ⟨(i 0).val, (i 0).isLt⟩ ⟨(i 1).val, (i 1).isLt⟩ ⟨(i 2).val, (i 2).isLt⟩

/-- The printed index maps, decided once over the 64 points: the row windows follow the point, the others stay. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The bias block -/

/-- The bias array the kernel is launched with is the flat bias cast to [8, 128]. -/
theorem V_bias (c : Dev nD) :
    (V m c main_v0 : S8x128.Idx → EReal) = shapeCast S8x128 (a4 m c) shapeCasts_S1024_S8x128 := by
  show StableHlo.after hostOps0 (fun b => m (c, b)) (Proc.devRef .tc main_v0) = _
  after_results
  rfl

theorem V_bias_apply (c : Dev nD) (h : Fin 8) (k : Fin 128) :
    (V m c main_v0 : S8x128.Idx → EReal) (ix2 h k) = a4 m c (ix1 (flat h k)) := by
  rw [V_bias]
  refine shapeCast_apply _ _ _ _ ?_
  rw [Shape.rowMajor_val_one, Shape.rowMajor_val_two]
  rfl

/-! ## The input blocks as rows of the arguments -/

theorem iblk0_apply (c : Dev nD) (t : Fin cfg0.N) (r d : Fin 256) (b : Fin 16384) (hb : b.val = t.val * 256 + r.val) :
    (iblk m c 0 t : Vec Ideal S256x256 .f32) (ix2 r d) = a0 m c (ix2 b d) := by
  obtain ⟨e0, e1, -⟩ := idx_facts t
  unfold iblk
  rw [View.read_apply]
  show V m c main_arg0 _ = _
  rw [V_main_arg0]
  refine congrArg (a0 m c) ?_
  funext a
  apply Fin.ext
  match a with
  | ⟨0, _⟩ => show win0_0.index t (0 : Fin 2) * 256 + 1 * r.val = b.val; rw [e0, hb]; omega
  | ⟨1, _⟩ => show win0_0.index t (1 : Fin 2) * 256 + 1 * d.val = d.val; rw [e1]; omega

theorem iblk1_apply (c : Dev nD) (t : Fin cfg0.N) (r : Fin 256) (n : Fin 32) (d : Fin 256) (b : Fin 16384)
    (hb : b.val = t.val * 256 + r.val) :
    (iblk m c 1 t : Vec Ideal S256x32x256 .f32) (ix3 r n d) = a1 m c (ix3 b n d) := by
  obtain ⟨-, -, e0, e1, e2, -⟩ := idx_facts t
  unfold iblk
  rw [View.read_apply]
  show V m c main_arg1 _ = _
  rw [V_main_arg1]
  refine congrArg (a1 m c) ?_
  funext a
  apply Fin.ext
  match a with
  | ⟨0, _⟩ => show win0_1.index t (0 : Fin 3) * 256 + 1 * r.val = b.val; rw [e0, hb]; omega
  | ⟨1, _⟩ => show win0_1.index t (1 : Fin 3) * 32 + 1 * n.val = n.val; rw [e1]; omega
  | ⟨2, _⟩ => show win0_1.index t (2 : Fin 3) * 256 + 1 * d.val = d.val; rw [e2]; omega

theorem iblk2_apply (c : Dev nD) (t : Fin cfg0.N) (d : Fin 256) (k : Fin 128) :
    (iblk m c 2 t : Vec Ideal S256x128 .f32) (ix2 d k) = a2 m c (ix2 d k) := by
  obtain ⟨-, -, -, -, -, e0, e1, -⟩ := idx_facts t
  unfold iblk
  rw [View.read_apply]
  show V m c main_arg2 _ = _
  rw [V_main_arg2]
  refine congrArg (a2 m c) ?_
  funext a
  apply Fin.ext
  match a with
  | ⟨0, _⟩ => show win0_2.index t (0 : Fin 2) * 256 + 1 * d.val = d.val; rw [e0]; omega
  | ⟨1, _⟩ => show win0_2.index t (1 : Fin 2) * 128 + 1 * k.val = k.val; rw [e1]; omega

theorem iblk3_apply (c : Dev nD) (t : Fin cfg0.N) (z : Fin 1) (h : Fin 8) (k : Fin 256) :
    (iblk m c 3 t : Vec Ideal S1x8x256 .f32) (ix3 z h k) = a3 m c (ix3 z h k) := by
  obtain ⟨-, -, -, -, -, -, -, e0, e1, e2, -⟩ := idx_facts t
  unfold iblk
  rw [View.read_apply]
  show V m c main_arg3 _ = _
  rw [V_main_arg3]
  refine congrArg (a3 m c) ?_
  funext a
  apply Fin.ext
  match a with
  | ⟨0, _⟩ => show win0_3.index t (0 : Fin 3) * 1 + 1 * z.val = z.val; rw [e0]; omega
  | ⟨1, _⟩ => show win0_3.index t (1 : Fin 3) * 8 + 1 * h.val = h.val; rw [e1]; omega
  | ⟨2, _⟩ => show win0_3.index t (2 : Fin 3) * 256 + 1 * k.val = k.val; rw [e2]; omega

theorem iblk4_apply (c : Dev nD) (t : Fin cfg0.N) (h : Fin 8) (k : Fin 128) :
    (iblk m c 4 t : Vec Ideal S8x128 .f32) (ix2 h k) = a4 m c (ix1 (flat h k)) := by
  obtain ⟨-, -, -, -, -, -, -, -, -, -, e0, e1, -⟩ := idx_facts t
  unfold iblk
  rw [View.read_apply]
  show V m c main_v0 _ = _
  refine Eq.trans (congrArg (V m c main_v0 : S8x128.Idx → EReal) ?_) (V_bias_apply m c h k)
  funext a
  apply Fin.ext
  match a with
  | ⟨0, _⟩ => show win0_4.index t (0 : Fin 2) * 8 + 1 * h.val = h.val; rw [e0]; omega
  | ⟨1, _⟩ => show win0_4.index t (1 : Fin 2) * 128 + 1 * k.val = k.val; rw [e1]; omega

/-! ## What a point writes back -/

/-- WHAT POINT t WRITES BACK is its block of `G5`. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5, out0_5_eq]
  obtain ⟨-, -, -, -, -, -, -, -, -, -, -, -, e0, e1, e2⟩ := idx_facts t
  funext y
  obtain ⟨r, h, k, rfl⟩ : ∃ (r : Fin 256) (h : Fin 8) (k : Fin 128), y = ix3 r h k := ⟨y 0, y 1, y 2, eq_ix3 y⟩
  have hN : cfg0.N = 64 := N_0
  have ht : t.val < 64 := by have := t.isLt; omega
  let b : Fin 16384 := ⟨t.val * 256 + r.val, by omega⟩
  have hemb : ((cfg0.win 5).blk t).view.emb (ix3 r h k) = (ix3 b h k : S16384x8x128.Idx) := by
    funext a
    apply Fin.ext
    match a with
    | ⟨0, _⟩ => show win0_5.index t (0 : Fin 3) * 256 + 1 * r.val = t.val * 256 + r.val; rw [e0]; omega
    | ⟨1, _⟩ => show win0_5.index t (1 : Fin 3) * 8 + 1 * h.val = h.val; rw [e1]; omega
    | ⟨2, _⟩ => show win0_5.index t (2 : Fin 3) * 128 + 1 * k.val = k.val; rw [e2]; omega
  rw [View.read_apply]
  show blockOutAt (iblk m c 0 t) (iblk m c 1 t) (iblk m c 2 t) (iblk m c 3 t) (iblk m c 4 t) r h k
    = G5 m c (((cfg0.win 5).blk t).view.emb (ix3 r h k))
  rw [hemb]
  show _ = heads (a0 m c) (a1 m c) (a2 m c) (a3 m c) (a4 m c) b h k
  unfold blockOutAt heads
  have hW : Wf (iblk m c 2 t) = fun d k => a2 m c (ix2 d k) := funext fun d => funext fun k => iblk2_apply m c t d k
  have hA : Af (iblk m c 3 t) = fun h k => a3 m c (ix3 (0 : Fin 1) h k) :=
    funext fun h => funext fun k => iblk3_apply m c t 0 h k
  have hrow : nodeRow (iblk m c 0 t) r = fun d => a0 m c (ix2 b d) := funext fun d => iblk0_apply m c t r d b rfl
  have hnbr : nbrRows (iblk m c 1 t) r = fun n d => a1 m c (ix3 b n d) :=
    funext fun n => funext fun d => iblk1_apply m c t r n d b rfl
  rw [hW, hA, hrow, hnbr, iblk4_apply]

/-! ## The cover and the final array -/

theorem mem_blk5 (t : Fin cfg0.N) (i : S16384x8x128.Idx) :
    i ∈ ((cfg0.win 5).blk t).view.set ↔ ∀ a : Fin 3, win0_5.index t a * S256x8x128.size a ≤ (i a).val
      ∧ (i a).val < win0_5.index t a * S256x8x128.size a + S256x8x128.size a := by
  show i ∈ ((View.whole main_v1).slice (win0_5.rect t)).set ↔ _
  rw [View.set_slice_whole, Rect.mem_set_unit]
  exact Iff.rfl

/-- Node row i lies in the block of point i / 256. -/
theorem cover5 (i : S16384x8x128.Idx) :
    ∃ t : Fin cfg0.N, (cfg0.win 5).flush t = true ∧ i ∈ ((cfg0.win 5).blk t).view.set := by
  have hi0 : (i 0).val < 16384 := (i 0).isLt
  have hi1 : (i 1).val < 8 := (i 1).isLt
  have hi2 : (i 2).val < 128 := (i 2).isLt
  have hN : cfg0.N = 64 := N_0
  have hlt : (i 0).val / 256 < cfg0.N := by rw [hN]; omega
  obtain ⟨-, -, -, -, -, -, -, -, -, -, -, -, e0, e1, e2⟩ := idx_facts ⟨(i 0).val / 256, hlt⟩
  refine ⟨⟨(i 0).val / 256, hlt⟩, flush0_5 _, ?_⟩
  rw [mem_blk5]
  intro a
  match a with
  | ⟨0, _⟩ =>
    show win0_5.index ⟨(i 0).val / 256, hlt⟩ (0 : Fin 3) * 256 ≤ (i 0).val
      ∧ (i 0).val < win0_5.index ⟨(i 0).val / 256, hlt⟩ (0 : Fin 3) * 256 + 256
    rw [e0]
    show (i 0).val / 256 * 256 ≤ (i 0).val ∧ (i 0).val < (i 0).val / 256 * 256 + 256
    omega
  | ⟨1, _⟩ =>
    show win0_5.index ⟨(i 0).val / 256, hlt⟩ (1 : Fin 3) * 8 ≤ (i 1).val
      ∧ (i 1).val < win0_5.index ⟨(i 0).val / 256, hlt⟩ (1 : Fin 3) * 8 + 8
    rw [e1]; omega
  | ⟨2, _⟩ =>
    show win0_5.index ⟨(i 0).val / 256, hlt⟩ (2 : Fin 3) * 128 ≤ (i 2).val
      ∧ (i 2).val < win0_5.index ⟨(i 0).val / 256, hlt⟩ (2 : Fin 3) * 128 + 128
    rw [e2]; omega

/-- THE RESULT ARRAY of the kernel after the run. -/
theorem final5 (c : Dev nD) : (dats m 0 c).arrAt 5 cfg0.N = G5 m c :=
  (dats m 0 c).arrAt_eq_of_cover 5 (G5 m c) (fun t _ => flushed5_eq m c t) cover5

end Cert.KernelIdeal.Arr

end
-- ==== Proof.KernelRun.lean ====
/-
  The kernel program's run, read: after the launch the host casts the [16384, 8, 128] result to [16384, 1024] and adds
  a leading unit axis, so entry (0, b, q) of the program's result is entry (b, q / 128, q % 128) of the kernel's array —
  the specification's `result`.
-/
import proofs.«109043_j1425929142443_2_alg».proof.Proof.Gen.KernelIdeal.Skeleton
import proofs.«109043_j1425929142443_2_alg».proof.Proof.Spec
import Idealize.ShloMosaic.Lib.ValueIdx
import Idealize.ShloMosaic.Lib.Pipeline.Value
import Idealize.ShloMosaic.PureOps.Ideal.Laws
import proofs.«109043_j1425929142443_2_alg».proof.Proof.Gen.KernelIdeal.Frame
import proofs.«109043_j1425929142443_2_alg».proof.Proof.KernelArray
import Idealize.ShloMosaic.Lib.StableHlo.Run

noncomputable section

open scoped BigOperators

namespace Cert.KernelIdeal.Arr

open Cert.KernelIdeal Cert.KernelIdeal.Gen Cert.NeighbourAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The program's result after the two host lines that follow the launch: the kernel's array, re-laid. -/
theorem tail_eq (c : Dev nD) :
    Pipeline.afterTail₀ cfgs (dats m) 0 (V0 m) [hostOps1] c main_v3
      = broadcastInDim S1x16384x1024 ![1, 2] bcast_S16384x1024_S1x16384x1024_1_2
          (shapeCast S16384x1024 (G5 m c) shapeCasts_S16384x8x128_S16384x1024) := by
  unfold Pipeline.afterTail₀
  show StableHlo.after hostOps1 _ (Proc.devRef .tc main_v3) = _
  after_results
  rw [Pipeline.withArrays_arr spec0 launch0.win.arr_inj c _ _ 5, final5]
  rfl

/-- Entry by entry it is the specification's result. -/
theorem tail_value (c : Dev nD) :
    Pipeline.afterTail₀ cfgs (dats m) 0 (V0 m) [hostOps1] c main_v3
      = result (a0 m c) (a1 m c) (a2 m c) (a3 m c) (a4 m c) := by
  rw [tail_eq]
  funext i
  obtain ⟨z, b, q, rfl⟩ : ∃ (z : Fin 1) (b : Fin 16384) (q : Fin 1024), i = ix3 z b q := ⟨i 0, i 1, i 2, eq_ix3 i⟩
  have hq : q.val < 1024 := q.isLt
  refine (broadcastInDim_apply _ _ _ (ix3 z b q) (ix2 b q) (fun a => by
    match a with
    | ⟨0, _⟩ => rfl
    | ⟨1, _⟩ => rfl)).trans ?_
  refine (shapeCast_apply _ _ (ix2 b q)
    (ix3 b (⟨q.val / 128, by omega⟩ : Fin 8) (⟨q.val % 128, by omega⟩ : Fin 128)) (by
      rw [Shape.rowMajor_val_three, Shape.rowMajor_val_two]
      show (b.val * 8 + q.val / 128) * 128 + q.val % 128 = b.val * 1024 + q.val
      omega)).trans ?_
  rfl

/-- THE RUN of the kernel program at the exact values: it terminates with its result at the specification's
    function of the arguments, and the arguments unchanged. -/
theorem run : θ_run defs (onTc (τ := τ) (main (F := Ideal))) ⟨m, fun _ => 0, ρ⟩ fun r => ∀ c : Dev nD,
      r.2.mem ((c.tc : Thread nD τ).loc main_v3) = result (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Arr

end
-- ==== Proof.RefTerm.lean ====
/-
  The reference program's result as one pure term of its five argument arrays, composed of named stages: the two
  projections, the two halves of the attention rows, the two score products, the raw logits, the rectifier, the
  row maxima, the exponentials, their row sums, the quotients, the weighted sums, and the biased result in the
  result's layout. Each stage is the reference's own operation (or a few of them) applied to arrays.
-/
import proofs.«109043_j1425929142443_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-! ## The stages, as pure functions of arrays -/

/-- The node rows projected: `x0 · w`. -/
def projNode (x0 : FVec Ideal S16384x256 .f32) (w : FVec Ideal S256x128 .f32) : FVec Ideal S16384x128 .f32 :=
  Host.dotGeneral (F := Ideal) dot_S16384x256_S256x128_S16384x128_1_0_0_1_n_n none x0 w

/-- The neighbour rows projected: `x1 · w`. -/
def projNbr (x1 : FVec Ideal S16384x32x256 .f32) (w : FVec Ideal S256x128 .f32) : FVec Ideal S16384x32x128 .f32 :=
  Host.dotGeneral (F := Ideal) dot_S16384x32x256_S256x128_S16384x32x128_2_0_01_1_n_n none x1 w

/-- The attention rows as an 8 × 256 array. -/
def attnRows (a : FVec Ideal S1x8x256 .f32) : FVec Ideal S8x256 .f32 :=
  fun i => shapeCast S8x256 a shapeCasts_S1x8x256_S8x256 i

/-- The first halves of the attention rows. -/
def attnSrc (a : FVec Ideal S1x8x256 .f32) : FVec Ideal S8x128 .f32 :=
  extractStridedSlice S8x128 ![0, 0] (attnRows a) slices_S8x256_S8x128_0_0

/-- The second halves of the attention rows. -/
def attnDst (a : FVec Ideal S1x8x256 .f32) : FVec Ideal S8x128 .f32 :=
  extractStridedSlice S8x128 ![0, 128] (attnRows a) slices_S8x256_S8x128_0_128

/-- Each head's score of each node's projection. -/
def srcScores (p : FVec Ideal S16384x128 .f32) (hs : FVec Ideal S8x128 .f32) : FVec Ideal S16384x8 .f32 :=
  Host.dotGeneral (F := Ideal) dot_S16384x128_S8x128_S16384x8_1_1_0_0_n_n none p hs

/-- Each head's score of each neighbour's projection. -/
def dstScores (q : FVec Ideal S16384x32x128 .f32) (hd : FVec Ideal S8x128 .f32) : FVec Ideal S16384x32x8 .f32 :=
  Host.dotGeneral (F := Ideal) dot_S16384x32x128_S8x128_S16384x32x8_2_1_01_0_n_n none q hd

/-- The raw logits per node, head and neighbour: the node's score repeated over the neighbours plus the
    neighbour's, heads before neighbours. -/
def scores (s : FVec Ideal S16384x8 .f32) (d : FVec Ideal S16384x32x8 .f32) : FVec Ideal S16384x8x32 .f32 :=
  transpose S16384x8x32 [0, 2, 1]
    (addf (broadcastInDim S16384x32x8 ![0, 1, 2] bcast_S16384x1x8_S16384x32x8_0_1_2
        (broadcastInDim S16384x1x8 ![0, 2] bcast_S16384x8_S16384x1x8_0_2 s)) d)
    transposes_S16384x32x8_S16384x8x32_0_2_1

/-- The leaky rectifier applied to every logit. -/
def rectified (t : FVec Ideal S16384x8x32 .f32) : FVec Ideal S16384x8x32 .f32 :=
  select (cmpf .oge t (broadcastInDim S16384x8x32 ![] bcast_S_S16384x8x32 (constant (F := Ideal) S_ .f32 0x00000000#32))) t
    (mulf (broadcastInDim S16384x8x32 ![] bcast_S_S16384x8x32 (id (constant (F := Ideal) S_ .f32 0x3E4CCCCD#32))) t)

/-- The largest rectified logit of each node and head. -/
def peaks (r : FVec Ideal S16384x8x32 .f32) : FVec Ideal S16384x8 .f32 :=
  maximumf (broadcastInDim S16384x8 ![] bcast_S_S16384x8 (constant (F := Ideal) S_ .f32 0xFF800000#32))
    (Host.reduce (FloatOps.maximumf (F := Ideal) (φ := .f32)) r (constant (F := Ideal) S_ .f32 0xFF800000#32) reducesTo_S16384x8x32_S16384x8_d2 h_S_)

/-- A per-node, per-head number repeated over the 32 neighbours. -/
def spread (v : FVec Ideal S16384x8 .f32) : FVec Ideal S16384x8x32 .f32 :=
  broadcastInDim S16384x8x32 ![0, 1, 2] bcast_S16384x8x1_S16384x8x32_0_1_2
    (broadcastInDim S16384x8x1 ![0, 1] bcast_S16384x8_S16384x8x1_0_1 v)

/-- The unnormalised softmax weights. -/
def weights (r : FVec Ideal S16384x8x32 .f32) : FVec Ideal S16384x8x32 .f32 :=
  Host.exp (F := Ideal) (subf r (spread (peaks r)))

/-- The softmax normalisers. -/
def totals (e : FVec Ideal S16384x8x32 .f32) : FVec Ideal S16384x8 .f32 :=
  Host.reduceAdd (F := Ideal) e (constant (F := Ideal) S_ .f32 0x00000000#32) reducesTo_S16384x8x32_S16384x8_d2 h_S_

/-- The attention coefficients. -/
def coefs (e : FVec Ideal S16384x8x32 .f32) : FVec Ideal S16384x8x32 .f32 :=
  Host.divf (F := Ideal) e (spread (totals e))

/-- The coefficient-weighted sums of the neighbours' projections. -/
def mixed (c : FVec Ideal S16384x8x32 .f32) (q : FVec Ideal S16384x32x128 .f32) : FVec Ideal S16384x8x128 .f32 :=
  Host.dotGeneral (F := Ideal) dot_S16384x8x32_S16384x32x128_S16384x8x128_2_1_1_2_0_0 none c q

/-- The heads concatenated, the bias added, and a leading axis of extent one put in front. -/
def biased (z : FVec Ideal S16384x8x128 .f32) (bias : FVec Ideal S1024 .f32) : FVec Ideal S1x16384x1024 .f32 :=
  broadcastInDim S1x16384x1024 ![1, 2] bcast_S16384x1024_S1x16384x1024_1_2
    (addf (fun i => shapeCast S16384x1024 z shapeCasts_S16384x8x128_S16384x1024 i)
      (broadcastInDim S16384x1024 ![0, 1] bcast_S1x1024_S16384x1024_0_1
        (broadcastInDim S1x1024 ![1] bcast_S1024_S1x1024_1 bias)))

/-- The reference's result as one term of its five arguments. -/
def refTerm (x0 : FVec Ideal S16384x256 .f32) (x1 : FVec Ideal S16384x32x256 .f32) (w : FVec Ideal S256x128 .f32)
    (a : FVec Ideal S1x8x256 .f32) (bias : FVec Ideal S1024 .f32) : FVec Ideal S1x16384x1024 .f32 :=
  biased
    (mixed
      (coefs (weights (rectified (scores (srcScores (projNode x0 w) (attnSrc a)) (dstScores (projNbr x1 w) (attnDst a))))))
      (projNbr x1 w))
    bias

end Cert.ReferenceIdeal.RefValue

end
-- ==== Proof.RefRun.lean ====
/-
  The reference program's run. Its forty-odd host operations are listed in order, the rectifier's and the
  selection's bodies in line at the one place they are called; the run then says every weakly fair execution
  terminates with the result buffer at one pure term of the five argument arrays (`refTerm`, the composition of
  named stages defined in the module imported first), the arguments unchanged.
-/
import proofs.«109043_j1425929142443_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The operations and the run -/

variable {F : FTy → Type} [FloatOps F]

/-- @main's operations in order, the rectifier's seven (the zero, its broadcast, the comparison, the slope
    converted to its own type, its broadcast, the product, the selection) in line at the call. -/
abbrev ops : List (HloOp τ sig (Elt F)) :=
  [ binary main_arg0 main_arg2 main_v0 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    binary main_arg1 main_arg2 main_v1 ((fun l r => Host.dotGeneral dot_S16384x32x256_S256x128_S16384x32x128_2_0_01_1_n_n none l r) : (⟨S16384x32x256, .f32⟩ : BufTy).Contents (Elt F) → (⟨S256x128, .f32⟩ : BufTy).Contents (Elt F) → (⟨S16384x32x128, .f32⟩ : BufTy).Contents (Elt F)),
    reshape main_arg3 main_v2 rfl shapeCasts_S1x8x256_S8x256,
    unary main_v2 main_v3 ((extractStridedSlice S8x128 ![0, 0] · slices_S8x256_S8x128_0_0) : (⟨S8x256, .f32⟩ : BufTy).Contents (Elt F) → (⟨S8x128, .f32⟩ : BufTy).Contents (Elt F)),
    unary main_v2 main_v4 ((extractStridedSlice S8x128 ![0, 128] · slices_S8x256_S8x128_0_128) : (⟨S8x256, .f32⟩ : BufTy).Contents (Elt F) → (⟨S8x128, .f32⟩ : BufTy).Contents (Elt F)),
    binary main_v0 main_v3 main_v5 ((fun l r => Host.dotGeneral dot_S16384x128_S8x128_S16384x8_1_1_0_0_n_n none l r) : (⟨S16384x128, .f32⟩ : BufTy).Contents (Elt F) → (⟨S8x128, .f32⟩ : BufTy).Contents (Elt F) → (⟨S16384x8, .f32⟩ : BufTy).Contents (Elt F)),
    unary main_v5 main_v6 (broadcastInDim S16384x1x8 ![0, 2] bcast_S16384x8_S16384x1x8_0_2 : (⟨S16384x8, .f32⟩ : BufTy).Contents (Elt F) → (⟨S16384x1x8, .f32⟩ : BufTy).Contents (Elt F)),
    binary main_v1 main_v4 main_v7 ((fun l r => Host.dotGeneral dot_S16384x32x128_S8x128_S16384x32x8_2_1_01_0_n_n none l r) : (⟨S16384x32x128, .f32⟩ : BufTy).Contents (Elt F) → (⟨S8x128, .f32⟩ : BufTy).Contents (Elt F) → (⟨S16384x32x8, .f32⟩ : BufTy).Contents (Elt F)),
    unary main_v6 main_v8 (broadcastInDim S16384x32x8 ![0, 1, 2] bcast_S16384x1x8_S16384x32x8_0_1_2 : (⟨S16384x1x8, .f32⟩ : BufTy).Contents (Elt F) → (⟨S16384x32x8, .f32⟩ : BufTy).Contents (Elt F)),
    binary main_v8 main_v7 main_v9 (addf : (⟨S16384x32x8, .f32⟩ : BufTy).Contents (Elt F) → (⟨S16384x32x8, .f32⟩ : BufTy).Contents (Elt F) → (⟨S16384x32x8, .f32⟩ : BufTy).Contents (Elt F)),
    unary main_v9 main_v10 ((transpose S16384x8x32 [0, 2, 1] · transposes_S16384x32x8_S16384x8x32_0_2_1) : (⟨S16384x32x8, .f32⟩ : BufTy).Contents (Elt F) → (⟨S16384x8x32, .f32⟩ : BufTy).Contents (Elt F)),
    nullary main_cst (constant S_ .f32 0x3E4CCCCD#32),
    TRef.nullary main_call0.cst (constant S_ .f32 0x00000000#32),
    TRef.unary main_call0.cst main_call0.v0 (broadcastInDim S16384x8x32 ![] bcast_S_S16384x8x32),
    TRef.binary (.of main_v10) main_call0.v0 main_call0.v1 (cmpf .oge),
    TRef.unary (.of main_cst) main_call0.v2 id,
    TRef.unary main_call0.v2 main_call0.v3 (broadcastInDim S16384x8x32 ![] bcast_S_S16384x8x32),
    TRef.binary main_call0.v3 (.of main_v10) main_call0.v4 mulf,
    TRef.ternary main_call0.v1 (.of main_v10) main_call0.v4 main_call0.call0.v0 select,
    nullary main_cst_0 (constant S_ .f32 0xFF800000#32),
    binary main_v11 main_cst_0 main_v12 ((fun x v => Host.reduce FloatOps.maximumf x v reducesTo_S16384x8x32_S16384x8_d2 h_S_) : (⟨S16384x8x32, .f32⟩ : BufTy).Contents (Elt F) → (⟨S_, .f32⟩ : BufTy).Contents (Elt F) → (⟨S16384x8, .f32⟩ : BufTy).Contents (Elt F)),
    nullary main_cst_1 (constant S_ .f32 0xFF800000#32),
    unary main_cst_1 main_v13 (broadcastInDim S16384x8 ![] bcast_S_S16384x8 : (⟨S_, .f32⟩ : BufTy).Contents (Elt F) → (⟨S16384x8, .f32⟩ : BufTy).Contents (Elt F)),
    binary main_v13 main_v12 main_v14 (maximumf : (⟨S16384x8, .f32⟩ : BufTy).Contents (Elt F) → (⟨S16384x8, .f32⟩ : BufTy).Contents (Elt F) → (⟨S16384x8, .f32⟩ : BufTy).Contents (Elt F)),
    unary main_v14 main_v15 (broadcastInDim S16384x8x1 ![0, 1] bcast_S16384x8_S16384x8x1_0_1 : (⟨S16384x8, .f32⟩ : BufTy).Contents (Elt F) → (⟨S16384x8x1, .f32⟩ : BufTy).Contents (Elt F)),
    unary main_v15 main_v16 (broadcastInDim S16384x8x32 ![0, 1, 2] bcast_S16384x8x1_S16384x8x32_0_1_2 : (⟨S16384x8x1, .f32⟩ : BufTy).Contents (Elt F) → (⟨S16384x8x32, .f32⟩ : BufTy).Contents (Elt F)),
    binary main_v11 main_v16 main_v17 (subf : (⟨S16384x8x32, .f32⟩ : BufTy).Contents (Elt F) → (⟨S16384x8x32, .f32⟩ : BufTy).Contents (Elt F) → (⟨S16384x8x32, .f32⟩ : BufTy).Contents (Elt F)),
    unary main_v17 main_v18 (Host.exp : (⟨S16384x8x32, .f32⟩ : BufTy).Contents (Elt F) → (⟨S16384x8x32, .f32⟩ : BufTy).Contents (Elt F)),
    nullary main_cst_2 (constant S_ .f32 0x00000000#32),
    binary main_v18 main_cst_2 main_v19 ((fun x v => Host.reduceAdd x v reducesTo_S16384x8x32_S16384x8_d2 h_S_) : (⟨S16384x8x32, .f32⟩ : BufTy).Contents (Elt F) → (⟨S_, .f32⟩ : BufTy).Contents (Elt F) → (⟨S16384x8, .f32⟩ : BufTy).Contents (Elt F)),
    unary main_v19 main_v20 (broadcastInDim S16384x8x1 ![0, 1] bcast_S16384x8_S16384x8x1_0_1 : (⟨S16384x8, .f32⟩ : BufTy).Contents (Elt F) → (⟨S16384x8x1, .f32⟩ : BufTy).Contents (Elt F)),
    unary main_v20 main_v21 (broadcastInDim S16384x8x32 ![0, 1, 2] bcast_S16384x8x1_S16384x8x32_0_1_2 : (⟨S16384x8x1, .f32⟩ : BufTy).Contents (Elt F) → (⟨S16384x8x32, .f32⟩ : BufTy).Contents (Elt F)),
    binary main_v18 main_v21 main_v22 (Host.divf : (⟨S16384x8x32, .f32⟩ : BufTy).Contents (Elt F) → (⟨S16384x8x32, .f32⟩ : BufTy).Contents (Elt F) → (⟨S16384x8x32, .f32⟩ : BufTy).Contents (Elt F)),
    binary main_v22 main_v1 main_v23 ((fun l r => Host.dotGeneral dot_S16384x8x32_S16384x32x128_S16384x8x128_2_1_1_2_0_0 none l r) : (⟨S16384x8x32, .f32⟩ : BufTy).Contents (Elt F) → (⟨S16384x32x128, .f32⟩ : BufTy).Contents (Elt F) → (⟨S16384x8x128, .f32⟩ : BufTy).Contents (Elt F)),
    reshape main_v23 main_v24 rfl shapeCasts_S16384x8x128_S16384x1024,
    unary main_arg4 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S16384x1024 ![0, 1] bcast_S1x1024_S16384x1024_0_1 : (⟨S1x1024, .f32⟩ : BufTy).Contents (Elt F) → (⟨S16384x1024, .f32⟩ : BufTy).Contents (Elt F)),
    binary main_v24 main_v26 main_v27 (addf : (⟨S16384x1024, .f32⟩ : BufTy).Contents (Elt F) → (⟨S16384x1024, .f32⟩ : BufTy).Contents (Elt F) → (⟨S16384x1024, .f32⟩ : BufTy).Contents (Elt F)),
    unary main_v27 main_v28 (broadcastInDim S1x16384x1024 ![1, 2] bcast_S16384x1024_S1x16384x1024_1_2 : (⟨S16384x1024, .f32⟩ : BufTy).Contents (Elt F) → (⟨S1x16384x1024, .f32⟩ : BufTy).Contents (Elt F)) ]

-- thirty-nine binds re-associated under the two inlined bodies
set_option maxRecDepth 2048 in
/-- @main is that straight line: the two functions' bodies unfolded at their calls, the sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., reshape_bufs_sub .., unary_bufs_sub .., unary_bufs_sub .., binary_bufs_sub ..,
    unary_bufs_sub .., binary_bufs_sub .., unary_bufs_sub .., binary_bufs_sub .., unary_bufs_sub .., nullary_bufs_sub ..,
    nullary_bufs_sub .., unary_bufs_sub .., binary_bufs_sub .., unary_bufs_sub .., unary_bufs_sub .., binary_bufs_sub ..,
    ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., reshape_bufs_sub .., unary_bufs_sub .., unary_bufs_sub ..,
    binary_bufs_sub .., unary_bufs_sub ..⟩

/-- For any float values, from any memory with zero counters: every weakly fair execution of @main terminates
    with every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the named term of the arguments' launch contents: the fold unrolled, each
    operation's result read at its own buffer and passed over at the others, the stages' definitions then being
    the composed term's subterms. -/
theorem out_eq (V : Valuation τ sig (Elt Ideal)) :
    after ops V (main_v28 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp

/-- Every weakly fair execution of @main at the ideal values terminates with the result buffer at `refTerm` of the
    arguments' launch contents, the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v28).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefValue

end
-- ==== Proof.RefDots.lean ====
/-
  The reference's five contractions read at an index: each is the sum, over the one contracted coordinate, of the
  products of the two operands' entries, the left operand's entry first.
-/
import proofs.«109043_j1425929142443_2_alg».proof.Proof.RefTerm
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- A node's projection on channel `c`: the sum over the 256 features. -/
theorem projNode_apply (x0 : FVec Ideal S16384x256 .f32) (w : FVec Ideal S256x128 .f32) (b : Fin 16384) (c : Fin 128) :
    projNode x0 w (ix2 b c) = ∑ d : Fin 256, x0 (ix2 b d) * w (ix2 d c) := by
  show FloatOps.dotGeneral dot_S16384x256_S256x128_S16384x128_1_0_0_1_n_n none _ x0 w (ix2 b c) = _
  rw [Ideal.dotGeneral_apply, ← Equiv.sum_comp (contrEquiv1 dot_S16384x256_S256x128_S16384x128_1_0_0_1_n_n 256 rfl rfl).symm]
  refine Finset.sum_congr rfl fun d _ => ?_
  have cv := contrEquiv1_symm_val dot_S16384x256_S256x128_S16384x128_1_0_0_1_n_n 256 rfl rfl d
  have l : dot_S16384x256_S256x128_S16384x128_1_0_0_1_n_n.lhsIdx (ix2 b c)
      ((contrEquiv1 dot_S16384x256_S256x128_S16384x128_1_0_0_1_n_n 256 rfl rfl).symm d) = ix2 b d := by
    funext ax; apply Fin.ext
    match ax with
    | ⟨0, _⟩ => simp [DotDims.lhsIdx, dot_S16384x256_S256x128_S16384x128_1_0_0_1_n_n]; rfl
    | ⟨1, _⟩ => simp [DotDims.lhsIdx, dot_S16384x256_S256x128_S16384x128_1_0_0_1_n_n]; exact cv
  have r : dot_S16384x256_S256x128_S16384x128_1_0_0_1_n_n.rhsIdx (ix2 b c)
      ((contrEquiv1 dot_S16384x256_S256x128_S16384x128_1_0_0_1_n_n 256 rfl rfl).symm d) = ix2 d c := by
    funext ax; apply Fin.ext
    match ax with
    | ⟨0, _⟩ => simp [DotDims.rhsIdx, dot_S16384x256_S256x128_S16384x128_1_0_0_1_n_n]; exact cv
    | ⟨1, _⟩ => simp [DotDims.rhsIdx, dot_S16384x256_S256x128_S16384x128_1_0_0_1_n_n]; rfl
  rw [l, r]

/-- A neighbour's projection on channel `c`: the sum over the 256 features. -/
theorem projNbr_apply (x1 : FVec Ideal S16384x32x256 .f32) (w : FVec Ideal S256x128 .f32) (b : Fin 16384) (n : Fin 32) (c : Fin 128) :
    projNbr x1 w (ix3 b n c) = ∑ d : Fin 256, x1 (ix3 b n d) * w (ix2 d c) := by
  show FloatOps.dotGeneral dot_S16384x32x256_S256x128_S16384x32x128_2_0_01_1_n_n none _ x1 w (ix3 b n c) = _
  rw [Ideal.dotGeneral_apply, ← Equiv.sum_comp (contrEquiv1 dot_S16384x32x256_S256x128_S16384x32x128_2_0_01_1_n_n 256 rfl rfl).symm]
  refine Finset.sum_congr rfl fun d _ => ?_
  have cv := contrEquiv1_symm_val dot_S16384x32x256_S256x128_S16384x32x128_2_0_01_1_n_n 256 rfl rfl d
  have l : dot_S16384x32x256_S256x128_S16384x32x128_2_0_01_1_n_n.lhsIdx (ix3 b n c)
      ((contrEquiv1 dot_S16384x32x256_S256x128_S16384x32x128_2_0_01_1_n_n 256 rfl rfl).symm d) = ix3 b n d := by
    funext ax; apply Fin.ext
    match ax with
    | ⟨0, _⟩ => simp [DotDims.lhsIdx, dot_S16384x32x256_S256x128_S16384x32x128_2_0_01_1_n_n]; rfl
    | ⟨1, _⟩ => simp [DotDims.lhsIdx, dot_S16384x32x256_S256x128_S16384x32x128_2_0_01_1_n_n]; rfl
    | ⟨2, _⟩ => simp [DotDims.lhsIdx, dot_S16384x32x256_S256x128_S16384x32x128_2_0_01_1_n_n]; exact cv
  have r : dot_S16384x32x256_S256x128_S16384x32x128_2_0_01_1_n_n.rhsIdx (ix3 b n c)
      ((contrEquiv1 dot_S16384x32x256_S256x128_S16384x32x128_2_0_01_1_n_n 256 rfl rfl).symm d) = ix2 d c := by
    funext ax; apply Fin.ext
    match ax with
    | ⟨0, _⟩ => simp [DotDims.rhsIdx, dot_S16384x32x256_S256x128_S16384x32x128_2_0_01_1_n_n]; exact cv
    | ⟨1, _⟩ => simp [DotDims.rhsIdx, dot_S16384x32x256_S256x128_S16384x32x128_2_0_01_1_n_n]; rfl
  rw [l, r]

/-- Head `h`'s score of node `b`: the sum over the 128 channels of the projection times the attention entry. -/
theorem srcScores_apply (p : FVec Ideal S16384x128 .f32) (hs : FVec Ideal S8x128 .f32) (b : Fin 16384) (h : Fin 8) :
    srcScores p hs (ix2 b h) = ∑ c : Fin 128, p (ix2 b c) * hs (ix2 h c) := by
  show FloatOps.dotGeneral dot_S16384x128_S8x128_S16384x8_1_1_0_0_n_n none _ p hs (ix2 b h) = _
  rw [Ideal.dotGeneral_apply, ← Equiv.sum_comp (contrEquiv1 dot_S16384x128_S8x128_S16384x8_1_1_0_0_n_n 128 rfl rfl).symm]
  refine Finset.sum_congr rfl fun c _ => ?_
  have cv := contrEquiv1_symm_val dot_S16384x128_S8x128_S16384x8_1_1_0_0_n_n 128 rfl rfl c
  have l : dot_S16384x128_S8x128_S16384x8_1_1_0_0_n_n.lhsIdx (ix2 b h)
      ((contrEquiv1 dot_S16384x128_S8x128_S16384x8_1_1_0_0_n_n 128 rfl rfl).symm c) = ix2 b c := by
    funext ax; apply Fin.ext
    match ax with
    | ⟨0, _⟩ => simp [DotDims.lhsIdx, dot_S16384x128_S8x128_S16384x8_1_1_0_0_n_n]; rfl
    | ⟨1, _⟩ => simp [DotDims.lhsIdx, dot_S16384x128_S8x128_S16384x8_1_1_0_0_n_n]; exact cv
  have r : dot_S16384x128_S8x128_S16384x8_1_1_0_0_n_n.rhsIdx (ix2 b h)
      ((contrEquiv1 dot_S16384x128_S8x128_S16384x8_1_1_0_0_n_n 128 rfl rfl).symm c) = ix2 h c := by
    funext ax; apply Fin.ext
    match ax with
    | ⟨0, _⟩ => simp [DotDims.rhsIdx, dot_S16384x128_S8x128_S16384x8_1_1_0_0_n_n]; rfl
    | ⟨1, _⟩ => simp [DotDims.rhsIdx, dot_S16384x128_S8x128_S16384x8_1_1_0_0_n_n]; exact cv
  rw [l, r]

/-- Head `h`'s score of neighbour `n` of node `b`: the sum over the 128 channels. -/
theorem dstScores_apply (q : FVec Ideal S16384x32x128 .f32) (hd : FVec Ideal S8x128 .f32) (b : Fin 16384) (n : Fin 32) (h : Fin 8) :
    dstScores q hd (ix3 b n h) = ∑ c : Fin 128, q (ix3 b n c) * hd (ix2 h c) := by
  show FloatOps.dotGeneral dot_S16384x32x128_S8x128_S16384x32x8_2_1_01_0_n_n none _ q hd (ix3 b n h) = _
  rw [Ideal.dotGeneral_apply, ← Equiv.sum_comp (contrEquiv1 dot_S16384x32x128_S8x128_S16384x32x8_2_1_01_0_n_n 128 rfl rfl).symm]
  refine Finset.sum_congr rfl fun c _ => ?_
  have cv := contrEquiv1_symm_val dot_S16384x32x128_S8x128_S16384x32x8_2_1_01_0_n_n 128 rfl rfl c
  have l : dot_S16384x32x128_S8x128_S16384x32x8_2_1_01_0_n_n.lhsIdx (ix3 b n h)
      ((contrEquiv1 dot_S16384x32x128_S8x128_S16384x32x8_2_1_01_0_n_n 128 rfl rfl).symm c) = ix3 b n c := by
    funext ax; apply Fin.ext
    match ax with
    | ⟨0, _⟩ => simp [DotDims.lhsIdx, dot_S16384x32x128_S8x128_S16384x32x8_2_1_01_0_n_n]; rfl
    | ⟨1, _⟩ => simp [DotDims.lhsIdx, dot_S16384x32x128_S8x128_S16384x32x8_2_1_01_0_n_n]; rfl
    | ⟨2, _⟩ => simp [DotDims.lhsIdx, dot_S16384x32x128_S8x128_S16384x32x8_2_1_01_0_n_n]; exact cv
  have r : dot_S16384x32x128_S8x128_S16384x32x8_2_1_01_0_n_n.rhsIdx (ix3 b n h)
      ((contrEquiv1 dot_S16384x32x128_S8x128_S16384x32x8_2_1_01_0_n_n 128 rfl rfl).symm c) = ix2 h c := by
    funext ax; apply Fin.ext
    match ax with
    | ⟨0, _⟩ => simp [DotDims.rhsIdx, dot_S16384x32x128_S8x128_S16384x32x8_2_1_01_0_n_n]; rfl
    | ⟨1, _⟩ => simp [DotDims.rhsIdx, dot_S16384x32x128_S8x128_S16384x32x8_2_1_01_0_n_n]; exact cv
  rw [l, r]

/-- Head `h`'s output on channel `c` for node `b`: the sum over the 32 neighbours of the coefficient times the neighbour's projection. -/
theorem mixed_apply (cf : FVec Ideal S16384x8x32 .f32) (q : FVec Ideal S16384x32x128 .f32) (b : Fin 16384) (h : Fin 8) (c : Fin 128) :
    mixed cf q (ix3 b h c) = ∑ n : Fin 32, cf (ix3 b h n) * q (ix3 b n c) := by
  show FloatOps.dotGeneral dot_S16384x8x32_S16384x32x128_S16384x8x128_2_1_1_2_0_0 none _ cf q (ix3 b h c) = _
  rw [Ideal.dotGeneral_apply, ← Equiv.sum_comp (contrEquiv1 dot_S16384x8x32_S16384x32x128_S16384x8x128_2_1_1_2_0_0 32 rfl rfl).symm]
  refine Finset.sum_congr rfl fun n _ => ?_
  have cv := contrEquiv1_symm_val dot_S16384x8x32_S16384x32x128_S16384x8x128_2_1_1_2_0_0 32 rfl rfl n
  have l : dot_S16384x8x32_S16384x32x128_S16384x8x128_2_1_1_2_0_0.lhsIdx (ix3 b h c)
      ((contrEquiv1 dot_S16384x8x32_S16384x32x128_S16384x8x128_2_1_1_2_0_0 32 rfl rfl).symm n) = ix3 b h n := by
    funext ax; apply Fin.ext
    match ax with
    | ⟨0, _⟩ => simp [DotDims.lhsIdx, dot_S16384x8x32_S16384x32x128_S16384x8x128_2_1_1_2_0_0]; rfl
    | ⟨1, _⟩ => simp [DotDims.lhsIdx, dot_S16384x8x32_S16384x32x128_S16384x8x128_2_1_1_2_0_0]; rfl
    | ⟨2, _⟩ => simp [DotDims.lhsIdx, dot_S16384x8x32_S16384x32x128_S16384x8x128_2_1_1_2_0_0]; exact cv
  have r : dot_S16384x8x32_S16384x32x128_S16384x8x128_2_1_1_2_0_0.rhsIdx (ix3 b h c)
      ((contrEquiv1 dot_S16384x8x32_S16384x32x128_S16384x8x128_2_1_1_2_0_0 32 rfl rfl).symm n) = ix3 b n c := by
    funext ax; apply Fin.ext
    match ax with
    | ⟨0, _⟩ => simp [DotDims.rhsIdx, dot_S16384x8x32_S16384x32x128_S16384x8x128_2_1_1_2_0_0]; rfl
    | ⟨1, _⟩ => simp [DotDims.rhsIdx, dot_S16384x8x32_S16384x32x128_S16384x8x128_2_1_1_2_0_0]; exact cv
    | ⟨2, _⟩ => simp [DotDims.rhsIdx, dot_S16384x8x32_S16384x32x128_S16384x8x128_2_1_1_2_0_0]; rfl
  rw [l, r]

end Cert.ReferenceIdeal.RefValue

end
-- ==== Proof.RefStages.lean ====
/-
  The reference's stages other than its contractions, each read at an index: the two halves of the attention rows,
  the raw logits, the rectifier, the row maxima, a per-row number repeated over the neighbours, the exponentials,
  their row sums, the quotients, and the biased result in the result's layout.
-/
import proofs.«109043_j1425929142443_2_alg».proof.Proof.RefTerm
import proofs.«109043_j1425929142443_2_alg».proof.Proof.Spec
import Idealize.ShloMosaic.PureOps.Ideal.Laws
import Idealize.ShloMosaic.PureOps.Reduce
import Idealize.ShloMosaic.Lib.ValueLayout
import Mathlib.Data.Finset.Fold

noncomputable section

open scoped BigOperators

namespace Cert.ReferenceIdeal.RefValue

open Cert.ReferenceIdeal Cert.ReferenceIdeal.Gen Idealize.ShloMosaic Idealize.ShloMosaic.ValueIdx
open Cert.NeighbourAttention (leaky lo hi)

/-! ## The attention rows -/

/-- The 8 × 256 view of the attention rows reads the one leading coordinate as 0. -/
theorem attnRows_apply (a : FVec Ideal S1x8x256 .f32) (h : Fin 8) (k : Fin 256) :
    attnRows a (ix2 h k) = a (ix3 (0 : Fin 1) h k) :=
  shapeCast_1ab_ab_apply a shapeCasts_S1x8x256_S8x256 h k

/-- The first half of row `h` at column `c`. -/
theorem attnSrc_apply (a : FVec Ideal S1x8x256 .f32) (h : Fin 8) (c : Fin 128) :
    attnSrc a (ix2 h c) = a (ix3 (0 : Fin 1) h (lo c)) :=
  (slice2_axis1_apply 0 (attnRows a) slices_S8x256_S8x128_0_0 h c (lo c) (Nat.zero_add _).symm).trans
    (attnRows_apply a h (lo c))

/-- The second half of row `h` at column `c`. -/
theorem attnDst_apply (a : FVec Ideal S1x8x256 .f32) (h : Fin 8) (c : Fin 128) :
    attnDst a (ix2 h c) = a (ix3 (0 : Fin 1) h (hi c)) :=
  (slice2_axis1_apply 128 (attnRows a) slices_S8x256_S8x128_0_128 h c (hi c) rfl).trans
    (attnRows_apply a h (hi c))

/-! ## The raw logits -/

/-- The raw logit of node `b`, head `h`, neighbour `n`: the node's score plus the neighbour's. -/
theorem scores_apply (s : FVec Ideal S16384x8 .f32) (d : FVec Ideal S16384x32x8 .f32) (b : Fin 16384) (h : Fin 8) (n : Fin 32) :
    scores s d (ix3 b h n) = s (ix2 b h) + d (ix3 b n h) := by
  unfold scores
  refine (transpose_ix3_021_apply _ transposes_S16384x32x8_S16384x8x32_0_2_1 b h n).trans ?_
  rw [addf_apply]
  congr 1
  refine (broadcastInDim_apply _ bcast_S16384x1x8_S16384x32x8_0_1_2 _ (ix3 b n h) (ix3 b (0 : Fin 1) h)
    fun ax => match ax with | ⟨0, _⟩ => rfl | ⟨1, _⟩ => rfl | ⟨2, _⟩ => rfl).trans ?_
  exact broadcastInDim_apply _ bcast_S16384x8_S16384x1x8_0_2 _ (ix3 b (0 : Fin 1) h) (ix2 b h)
    fun ax => match ax with | ⟨0, _⟩ => rfl | ⟨1, _⟩ => rfl

/-! ## The rectifier -/

/-- The rectified array at an index is the leaky rectifier of the entry. -/
theorem rectified_apply (t : FVec Ideal S16384x8x32 .f32) (i : S16384x8x32.Idx) : rectified t i = leaky (t i) := rfl

/-! ## A per-row number repeated over the neighbours -/

theorem spread_apply (v : FVec Ideal S16384x8 .f32) (b : Fin 16384) (h : Fin 8) (n : Fin 32) :
    spread v (ix3 b h n) = v (ix2 b h) := by
  unfold spread
  refine (broadcastInDim_apply _ bcast_S16384x8x1_S16384x8x32_0_1_2 _ (ix3 b h n) (ix3 b h (0 : Fin 1))
    fun ax => match ax with | ⟨0, _⟩ => rfl | ⟨1, _⟩ => rfl | ⟨2, _⟩ => rfl).trans ?_
  exact broadcastInDim_apply _ bcast_S16384x8_S16384x8x1_0_1 _ (ix3 b h (0 : Fin 1)) (ix2 b h)
    fun ax => match ax with | ⟨0, _⟩ => rfl | ⟨1, _⟩ => rfl

/-! ## The row maxima -/

theorem reduces_last : S16384x8x32.Reduces [2] S16384x8 := by decide

/-- The index of the row's `n`-th entry. -/
theorem lift_last (b : Fin 16384) (h : Fin 8) (n : Fin 32) : reduces_last.lift (ix2 b h) n = ix3 b h n := by
  funext ax; apply Fin.ext
  match ax with
  | ⟨0, _⟩ => rfl
  | ⟨1, _⟩ => rfl
  | ⟨2, _⟩ => rfl

/-- The largest entry of row `(b, h)`, from `-∞`: the reference's maximum of the `-∞` splat and the row's
    reduction from `-∞` is the reduction, the fold never falling below its starting value. -/
theorem peaks_apply (r : FVec Ideal S16384x8x32 .f32) (b : Fin 16384) (h : Fin 8) :
    peaks r (ix2 b h)
      = (Finset.univ : Finset (Fin 32)).fold max (Ideal.ofBits .f32 0xFF800000#32) (fun n => r (ix3 b h n)) := by
  unfold peaks
  rw [maximumf_apply,
    Host.reduce_eq_fold_single (FloatOps.maximumf (F := Ideal) (φ := .f32)) r _ reducesTo_S16384x8x32_S16384x8_d2 reduces_last h_S_]
  have hf : (r ∘ reduces_last.lift (ix2 b h)) = fun n : Fin 32 => r (ix3 b h n) := by
    funext n; exact congrArg r (lift_last b h n)
  rw [hf]
  exact max_eq_right ((Finset.le_fold_max _).mpr (Or.inl le_rfl))

/-! ## The exponentials, their sums, the quotients -/

theorem weights_apply (r : FVec Ideal S16384x8x32 .f32) (b : Fin 16384) (h : Fin 8) (n : Fin 32) :
    weights r (ix3 b h n) = Ideal.exp (r (ix3 b h n) - peaks r (ix2 b h)) := by
  show Ideal.exp (r (ix3 b h n) - spread (peaks r) (ix3 b h n)) = _
  rw [spread_apply]

theorem totals_apply (e : FVec Ideal S16384x8x32 .f32) (b : Fin 16384) (h : Fin 8) :
    totals e (ix2 b h) = ∑ n : Fin 32, e (ix3 b h n) := by
  show Ideal.hostReduceAdd reducesTo_S16384x8x32_S16384x8_d2 e (Ideal.ofBits .f32 0x00000000#32) (ix2 b h) = _
  rw [Ideal.hostReduceAdd_single reducesTo_S16384x8x32_S16384x8_d2 reduces_last, Ideal.ofBits_zero_f32, zero_add]
  exact Finset.sum_congr rfl fun n _ => congrArg e (lift_last b h n)

theorem coefs_apply (e : FVec Ideal S16384x8x32 .f32) (b : Fin 16384) (h : Fin 8) (n : Fin 32) :
    coefs e (ix3 b h n) = Ideal.div (e (ix3 b h n)) (totals e (ix2 b h)) := by
  unfold coefs Host.divf
  rw [Ideal.hostDivf_def, spread_apply]

/-! ## The result's layout and the bias -/

/-- The result at `(0, b, p)`: the weighted sum of head `p / 128`, channel `p % 128`, plus bias entry `p`. -/
theorem biased_apply (z : FVec Ideal S16384x8x128 .f32) (bias : FVec Ideal S1024 .f32) (u : Fin 1) (b : Fin 16384) (p : Fin 1024) :
    biased z bias (ix3 u b p)
      = z (ix3 b (⟨p.val / 128, Nat.div_lt_of_lt_mul (show p.val < 128 * 8 from p.isLt)⟩ : Fin 8)
            (⟨p.val % 128, Nat.mod_lt _ (by norm_num)⟩ : Fin 128))
        + bias (ix1 p) := by
  unfold biased
  refine (broadcastInDim_apply _ bcast_S16384x1024_S1x16384x1024_1_2 _ (ix3 u b p) (ix2 b p)
    fun ax => match ax with | ⟨0, _⟩ => rfl | ⟨1, _⟩ => rfl).trans ?_
  rw [addf_apply]
  congr 1
  · refine shapeCast_apply z shapeCasts_S16384x8x128_S16384x1024 (ix2 b p) _ ?_
    rw [Shape.rowMajor_val_three, Shape.rowMajor_val_two]
    show (b.val * 8 + p.val / 128) * 128 + p.val % 128 = b.val * 1024 + p.val
    omega
  · refine (broadcastInDim_apply _ bcast_S1x1024_S16384x1024_0_1 _ (ix2 b p) (ix2 (0 : Fin 1) p)
      fun ax => match ax with | ⟨0, _⟩ => rfl | ⟨1, _⟩ => rfl).trans ?_
    exact broadcastInDim_apply _ bcast_S1024_S1x1024_1 _ (ix2 (0 : Fin 1) p) (ix1 p)
      fun ax => match ax with | ⟨0, _⟩ => rfl

end Cert.ReferenceIdeal.RefValue

end
-- ==== Proof.RefValue.lean ====
/-
  The reference's term is the specification's function of the five arrays. Stage by stage the reference's arrays,
  read at an index, are the specification's scalars at that node, head, neighbour and channel: the two scores, the
  rectified logit, the row maximum, the exponential, the normaliser, the coefficient, the weighted sum; the last
  step reads the result's layout, entry `(0, b, p)` being head `p / 128`, channel `p % 128`, with bias entry `p`.
  No law of arithmetic is used: the sums are the same sums, factor for factor.
-/
import proofs.«109043_j1425929142443_2_alg».proof.Proof.RefDots
import proofs.«109043_j1425929142443_2_alg».proof.Proof.RefStages

noncomputable section

open scoped BigOperators

namespace Cert.ReferenceIdeal.RefValue

open Cert.ReferenceIdeal Cert.ReferenceIdeal.Gen Idealize.ShloMosaic Idealize.ShloMosaic.ValueIdx
open Cert.NeighbourAttention

section Value

variable (x0 : FVec Ideal S16384x256 .f32) (x1 : FVec Ideal S16384x32x256 .f32) (w : FVec Ideal S256x128 .f32)
  (a : FVec Ideal S1x8x256 .f32) (bias : FVec Ideal S1024 .f32)

/-- The projection matrix by coordinates. -/
abbrev Wm : Fin 256 → Fin 128 → EReal := fun d c => w (ix2 d c)
/-- The attention rows by coordinates. -/
abbrev Am : Fin 8 → Fin 256 → EReal := fun h k => a (ix3 (0 : Fin 1) h k)
/-- Node `b`'s feature row. -/
abbrev vrow (b : Fin 16384) : Fin 256 → EReal := fun d => x0 (ix2 b d)
/-- Node `b`'s neighbours' feature rows. -/
abbrev nbrows (b : Fin 16384) : Fin 32 → Fin 256 → EReal := fun n d => x1 (ix3 b n d)

/-- The reference's array of rectified logits. -/
def logits : FVec Ideal S16384x8x32 .f32 :=
  rectified (scores (srcScores (projNode x0 w) (attnSrc a)) (dstScores (projNbr x1 w) (attnDst a)))

theorem srcScore_eq (b : Fin 16384) (h : Fin 8) :
    srcScores (projNode x0 w) (attnSrc a) (ix2 b h) = srcScore (Wm w) (Am a) (vrow x0 b) h := by
  rw [srcScores_apply]
  exact Finset.sum_congr rfl fun c _ => by rw [projNode_apply, attnSrc_apply]; rfl

theorem dstScore_eq (b : Fin 16384) (n : Fin 32) (h : Fin 8) :
    dstScores (projNbr x1 w) (attnDst a) (ix3 b n h) = dstScore (Wm w) (Am a) (nbrows x1 b n) h := by
  rw [dstScores_apply]
  exact Finset.sum_congr rfl fun c _ => by rw [projNbr_apply, attnDst_apply]; rfl

theorem logits_apply (b : Fin 16384) (h : Fin 8) (n : Fin 32) :
    logits x0 x1 w a (ix3 b h n) = logit (Wm w) (Am a) (vrow x0 b) (nbrows x1 b) n h := by
  unfold logits
  rw [rectified_apply, scores_apply, srcScore_eq, dstScore_eq]
  rfl

theorem peaks_eq (b : Fin 16384) (h : Fin 8) :
    peaks (logits x0 x1 w a) (ix2 b h) = peak (Wm w) (Am a) (vrow x0 b) (nbrows x1 b) h := by
  rw [peaks_apply]
  exact congrArg (fun f => Finset.fold max (Ideal.ofBits .f32 0xFF800000#32) f (Finset.univ : Finset (Fin 32)))
    (funext fun n => logits_apply x0 x1 w a b h n)

theorem weights_eq (b : Fin 16384) (h : Fin 8) (n : Fin 32) :
    weights (logits x0 x1 w a) (ix3 b h n) = weight (Wm w) (Am a) (vrow x0 b) (nbrows x1 b) n h := by
  rw [weights_apply, logits_apply, peaks_eq]
  rfl

theorem totals_eq (b : Fin 16384) (h : Fin 8) :
    totals (weights (logits x0 x1 w a)) (ix2 b h) = total (Wm w) (Am a) (vrow x0 b) (nbrows x1 b) h := by
  rw [totals_apply]
  exact Finset.sum_congr rfl fun n _ => weights_eq x0 x1 w a b h n

theorem coefs_eq (b : Fin 16384) (h : Fin 8) (n : Fin 32) :
    coefs (weights (logits x0 x1 w a)) (ix3 b h n) = coef (Wm w) (Am a) (vrow x0 b) (nbrows x1 b) n h := by
  rw [coefs_apply, weights_eq, totals_eq]
  rfl

theorem mixed_eq (b : Fin 16384) (h : Fin 8) (c : Fin 128) :
    mixed (coefs (weights (logits x0 x1 w a))) (projNbr x1 w) (ix3 b h c)
      = mix (Wm w) (Am a) (vrow x0 b) (nbrows x1 b) h c := by
  rw [mixed_apply]
  exact Finset.sum_congr rfl fun n _ => by rw [coefs_eq, projNbr_apply]; rfl

/-- The specification's result at `(z, b, q)`. -/
theorem result_apply (z : Fin 1) (b : Fin 16384) (q : Fin 1024) :
    result x0 x1 w a bias (ix3 z b q)
      = heads x0 x1 w a bias b (⟨q.val / 128, Nat.div_lt_of_lt_mul (show q.val < 128 * 8 from q.isLt)⟩ : Fin 8)
          (⟨q.val % 128, Nat.mod_lt _ (by norm_num)⟩ : Fin 128) := rfl

/-- The reference's term is the specification's result. -/
theorem refTerm_eq : refTerm x0 x1 w a bias = result x0 x1 w a bias := by
  funext i
  obtain ⟨z, b, q, rfl⟩ : ∃ (z : Fin 1) (b : Fin 16384) (q : Fin 1024), i = ix3 z b q := ⟨i 0, i 1, i 2, eq_ix3 i⟩
  rw [result_apply]
  show biased (mixed (coefs (weights (logits x0 x1 w a))) (projNbr x1 w)) bias (ix3 z b q) = _
  rw [biased_apply, mixed_eq]
  unfold heads
  have hq : flat (⟨q.val / 128, Nat.div_lt_of_lt_mul (show q.val < 128 * 8 from q.isLt)⟩ : Fin 8)
      (⟨q.val % 128, Nat.mod_lt _ (by norm_num)⟩ : Fin 128) = q := Fin.ext (Nat.div_add_mod' q.val 128)
  rw [hq]

end Value

end Cert.ReferenceIdeal.RefValue

end
-- ==== Proof.RefFinal.lean ====
/-
  The reference's run with its value: every weakly fair execution terminates with the result buffer at the
  specification's function of the five argument arrays, the arguments unchanged.
-/
import proofs.«109043_j1425929142443_2_alg».proof.Proof.RefRun
import proofs.«109043_j1425929142443_2_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v28) = Cert.NeighbourAttention.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (refTerm_eq _ _ _ _ _), (h c).2⟩) (run_term m ρ)

end Cert.ReferenceIdeal.RefValue

end
-- ==== Proof.lean ====
/-
  A graph-attention layer over 16384 nodes with 32 neighbours each: the kernel and the reference compute the same
  function of the five arguments at the exact (extended-real) values.

  Both project the node and neighbour features by one matrix, score them against the two halves of eight attention
  rows, rectify the summed scores, take the softmax over the neighbours as exp (x - max) / Σ exp (x - max), and
  weight the neighbours' projections by it, adding a bias. The kernel does this for 256 nodes per grid point with
  the (node, neighbour) pairs merged on one axis, the neighbour axis second and a loop over the eight heads; the
  reference does it for all nodes at once with the neighbour axis last. Entry by entry the two are the same sums of
  the same products in the same order of factors (`Cert.NeighbourAttention.result`), so no law of arithmetic and no
  finiteness of the inputs is used: the precondition is never opened. The kernel's narrowing of the dominant
  product's operands is the identity at the exact values, its zero accumulators and the reference's zero initial
  values vanish, and the reference's extra maximum with minus infinity is absorbed by the running maximum.

  The three frames are the generated frame runs (the reference's is its run with the result dropped); the
  idealization rewrote nothing, so `preserves` is trivial.
-/
import proofs.«109043_j1425929142443_2_alg».proof.Defs
import proofs.«109043_j1425929142443_2_alg».proof.Proof.Gen.Kernel
import proofs.«109043_j1425929142443_2_alg».proof.Proof.Gen.Kernel.Frame
import proofs.«109043_j1425929142443_2_alg».proof.Proof.Gen.KernelIdeal
import proofs.«109043_j1425929142443_2_alg».proof.Proof.Gen.KernelIdeal.Frame
import proofs.«109043_j1425929142443_2_alg».proof.Proof.Gen.ReferenceIdeal
import proofs.«109043_j1425929142443_2_alg».proof.Proof.Gen.Pre_finite_inputs
import proofs.«109043_j1425929142443_2_alg».proof.Proof.KernelRun
import proofs.«109043_j1425929142443_2_alg».proof.Proof.RefFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with their result at the specification's function of arguments that agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
